-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v30)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v30) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v28) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S10000x256 : Shape := ⟨2, ![10000, 256]⟩
abbrev S2x320000 : Shape := ⟨2, ![2, 320000]⟩
abbrev S320000 : Shape := ⟨1, ![320000]⟩
abbrev S320000x256 : Shape := ⟨2, ![320000, 256]⟩
abbrev S769x256 : Shape := ⟨2, ![769, 256]⟩
abbrev S256 : Shape := ⟨1, ![256]⟩
abbrev S256x256 : Shape := ⟨2, ![256, 256]⟩
abbrev S_ : Shape := ⟨0, ![]⟩

class Facts : Prop where
  bcast_S_S10000x256 : S_.BroadcastsInDim S10000x256 (![] : Fin 0 → Fin S10000x256.rank)
  reducesTo_S10000x256_S_d0_1 : S10000x256.ReducesTo [0, 1] S_
  h_S_ : 0 < S_.numel
  bcast_S_S320000 : S_.BroadcastsInDim S320000 (![] : Fin 0 → Fin S320000.rank)
  reducesTo_S320000_S_d0 : S320000.ReducesTo [0] S_
  bcast_S_S320000x256 : S_.BroadcastsInDim S320000x256 (![] : Fin 0 → Fin S320000x256.rank)
  reducesTo_S320000x256_S_d0_1 : S320000x256.ReducesTo [0, 1] S_
  bcast_S_S769x256 : S_.BroadcastsInDim S769x256 (![] : Fin 0 → Fin S769x256.rank)
  reducesTo_S769x256_S_d0_1 : S769x256.ReducesTo [0, 1] S_
  bcast_S_S256 : S_.BroadcastsInDim S256 (![] : Fin 0 → Fin S256.rank)
  reducesTo_S256_S_d0 : S256.ReducesTo [0] S_
  bcast_S_S256x256 : S_.BroadcastsInDim S256x256 (![] : Fin 0 → Fin S256x256.rank)
  reducesTo_S256x256_S_d0_1 : S256x256.ReducesTo [0, 1] S_

variable [Facts]

def fn_part1 {F : FTy → Type} [FloatOps F] (main_arg5 : FVec F S256 .f32) (main_arg6 : FVec F S256x256 .f32) (main_arg7 : FVec F S256 .f32) (main_v13 : IVec S_ 1) (main_v16 : IVec S769x256 1) : IVec S_ 1 :=
  let main_c_5 : IVec S_ 1 := constantI S_ 1 1#1
  let main_v17 : IVec S_ 1 := (fun x v => Host.reduce IntOp.andi x v reducesTo_S769x256_S_d0_1 h_S_) main_v16 main_c_5
  let main_v18 : IVec S_ 1 := andi main_v13 main_v17
  let main_v19 : FVec F S256 .f32 := Host.absf main_arg5
  let main_cst_6 : FVec F S_ .f32 := constant S_ .f32 0x7F800000#32
  let main_v20 : FVec F S256 .f32 := broadcastInDim S256 ![] bcast_S_S256 main_cst_6
  let main_v21 : IVec S256 1 := cmpf .olt main_v19 main_v20
  let main_c_7 : IVec S_ 1 := constantI S_ 1 1#1
  let main_v22 : IVec S_ 1 := (fun x v => Host.reduce IntOp.andi x v reducesTo_S256_S_d0 h_S_) main_v21 main_c_7
  let main_v23 : IVec S_ 1 := andi main_v18 main_v22
  let main_v24 : FVec F S256x256 .f32 := Host.absf main_arg6
  let main_cst_8 : FVec F S_ .f32 := constant S_ .f32 0x7F800000#32
  let main_v25 : FVec F S256x256 .f32 := broadcastInDim S256x256 ![] bcast_S_S256x256 main_cst_8
  let main_v26 : IVec S256x256 1 := cmpf .olt main_v24 main_v25
  let main_c_9 : IVec S_ 1 := constantI S_ 1 1#1
  let main_v27 : IVec S_ 1 := (fun x v => Host.reduce IntOp.andi x v reducesTo_S256x256_S_d0_1 h_S_) main_v26 main_c_9
  let main_v28 : IVec S_ 1 := andi main_v23 main_v27
  let main_v29 : FVec F S256 .f32 := Host.absf main_arg7
  let main_cst_10 : FVec F S_ .f32 := constant S_ .f32 0x7F800000#32
  let main_v30 : FVec F S256 .f32 := broadcastInDim S256 ![] bcast_S_S256 main_cst_10
  let main_v31 : IVec S256 1 := cmpf .olt main_v29 main_v30
  let main_c_11 : IVec S_ 1 := constantI S_ 1 1#1
  let main_v32 : IVec S_ 1 := (fun x v => Host.reduce IntOp.andi x v reducesTo_S256_S_d0 h_S_) main_v31 main_c_11
  let main_v33 : IVec S_ 1 := andi main_v28 main_v32
  main_v33

def fn {F : FTy → Type} [FloatOps F] (main_arg0 : FVec F S10000x256 .f32) (main_arg1 : IVec S2x320000 32) (main_arg2 : FVec F S320000 .f32) (main_arg3 : FVec F S320000x256 .f32) (main_arg4 : FVec F S769x256 .f32) (main_arg5 : FVec F S256 .f32) (main_arg6 : FVec F S256x256 .f32) (main_arg7 : FVec F S256 .f32) : IVec S_ 1 :=
  let main_v0 : FVec F S10000x256 .f32 := Host.absf main_arg0
  let main_cst : FVec F S_ .f32 := constant S_ .f32 0x7F800000#32
  let main_v1 : FVec F S10000x256 .f32 := broadcastInDim S10000x256 ![] bcast_S_S10000x256 main_cst
  let main_v2 : IVec S10000x256 1 := cmpf .olt main_v0 main_v1
  let main_c : IVec S_ 1 := constantI S_ 1 1#1
  let main_v3 : IVec S_ 1 := (fun x v => Host.reduce IntOp.andi x v reducesTo_S10000x256_S_d0_1 h_S_) main_v2 main_c
  let main_v4 : FVec F S320000 .f32 := Host.absf main_arg2
  let main_cst_0 : FVec F S_ .f32 := constant S_ .f32 0x7F800000#32
  let main_v5 : FVec F S320000 .f32 := broadcastInDim S320000 ![] bcast_S_S320000 main_cst_0
  let main_v6 : IVec S320000 1 := cmpf .olt main_v4 main_v5
  let main_c_1 : IVec S_ 1 := constantI S_ 1 1#1
  let main_v7 : IVec S_ 1 := (fun x v => Host.reduce IntOp.andi x v reducesTo_S320000_S_d0 h_S_) main_v6 main_c_1
  let main_v8 : IVec S_ 1 := andi main_v3 main_v7
  let main_v9 : FVec F S320000x256 .f32 := Host.absf main_arg3
  let main_cst_2 : FVec F S_ .f32 := constant S_ .f32 0x7F800000#32
  let main_v10 : FVec F S320000x256 .f32 := broadcastInDim S320000x256 ![] bcast_S_S320000x256 main_cst_2
  let main_v11 : IVec S320000x256 1 := cmpf .olt main_v9 main_v10
  let main_c_3 : IVec S_ 1 := constantI S_ 1 1#1
  let main_v12 : IVec S_ 1 := (fun x v => Host.reduce IntOp.andi x v reducesTo_S320000x256_S_d0_1 h_S_) main_v11 main_c_3
  let main_v13 : IVec S_ 1 := andi main_v8 main_v12
  let main_v14 : FVec F S769x256 .f32 := Host.absf main_arg4
  let main_cst_4 : FVec F S_ .f32 := constant S_ .f32 0x7F800000#32
  let main_v15 : FVec F S769x256 .f32 := broadcastInDim S769x256 ![] bcast_S_S769x256 main_cst_4
  let main_v16 : IVec S769x256 1 := cmpf .olt main_v14 main_v15
  fn_part1 (F := F) main_arg5 main_arg6 main_arg7 main_v13 main_v16
-- ==== Kernel.lean ====
abbrev S10000x256 : Shape := ⟨2, ![10000, 256]⟩
abbrev S2x320000 : Shape := ⟨2, ![2, 320000]⟩
abbrev S320000 : Shape := ⟨1, ![320000]⟩
abbrev S320000x256 : Shape := ⟨2, ![320000, 256]⟩
abbrev S769x256 : Shape := ⟨2, ![769, 256]⟩
abbrev S256 : Shape := ⟨1, ![256]⟩
abbrev S256x256 : Shape := ⟨2, ![256, 256]⟩
abbrev S1x320000 : Shape := ⟨2, ![1, 320000]⟩
abbrev S_ : Shape := ⟨0, ![]⟩
abbrev S320000x1 : Shape := ⟨2, ![320000, 1]⟩
abbrev S1x256 : Shape := ⟨2, ![1, 256]⟩
abbrev S3200x256 : Shape := ⟨2, ![3200, 256]⟩
abbrev S3200x1 : Shape := ⟨2, ![3200, 1]⟩

abbrev nBuf : Space → Nat
  | .hbm => 43
  | .vmem => 17
  | .smem => 0
  | _ => 0

abbrev bufTy : (tb : Table) → Fin (tcTables nBuf tb) → BufTy
  | .hbm, ⟨0, _⟩ => ⟨S10000x256, .f32⟩
  | .hbm, ⟨1, _⟩ => ⟨S2x320000, .i32⟩
  | .hbm, ⟨2, _⟩ => ⟨S320000, .f32⟩
  | .hbm, ⟨3, _⟩ => ⟨S320000x256, .f32⟩
  | .hbm, ⟨4, _⟩ => ⟨S769x256, .f32⟩
  | .hbm, ⟨5, _⟩ => ⟨S256, .f32⟩
  | .hbm, ⟨6, _⟩ => ⟨S256x256, .f32⟩
  | .hbm, ⟨7, _⟩ => ⟨S256, .f32⟩
  | .hbm, ⟨8, _⟩ => ⟨S1x320000, .i32⟩
  | .hbm, ⟨9, _⟩ => ⟨S320000, .i32⟩
  | .hbm, ⟨10, _⟩ => ⟨S1x320000, .i32⟩
  | .hbm, ⟨11, _⟩ => ⟨S320000, .i32⟩
  | .hbm, ⟨12, _⟩ => ⟨S10000x256, .bf16⟩
  | .hbm, ⟨13, _⟩ => ⟨S_, .i32⟩
  | .hbm, ⟨14, _⟩ => ⟨S320000, .i32⟩
  | .hbm, ⟨15, _⟩ => ⟨S320000, .i1⟩
  | .hbm, ⟨16, _⟩ => ⟨S_, .i32⟩
  | .hbm, ⟨17, _⟩ => ⟨S320000, .i32⟩
  | .hbm, ⟨18, _⟩ => ⟨S320000, .i32⟩
  | .hbm, ⟨19, _⟩ => ⟨S320000, .i32⟩
  | .hbm, ⟨20, _⟩ => ⟨S320000x1, .i32⟩
  | .hbm, ⟨21, _⟩ => ⟨S320000x256, .bf16⟩
  | .hbm, ⟨22, _⟩ => ⟨S_, .i32⟩
  | .hbm, ⟨23, _⟩ => ⟨S320000, .i32⟩
  | .hbm, ⟨24, _⟩ => ⟨S320000, .i1⟩
  | .hbm, ⟨25, _⟩ => ⟨S_, .i32⟩
  | .hbm, ⟨26, _⟩ => ⟨S320000, .i32⟩
  | .hbm, ⟨27, _⟩ => ⟨S320000, .i32⟩
  | .hbm, ⟨28, _⟩ => ⟨S320000, .i32⟩
  | .hbm, ⟨29, _⟩ => ⟨S320000x1, .i32⟩
  | .hbm, ⟨30, _⟩ => ⟨S320000x256, .bf16⟩
  | .hbm, ⟨31, _⟩ => ⟨S256x256, .f32⟩
  | .hbm, ⟨32, _⟩ => ⟨S256x256, .bf16⟩
  | .hbm, ⟨33, _⟩ => ⟨S256x256, .f32⟩
  | .hbm, ⟨34, _⟩ => ⟨S256x256, .bf16⟩
  | .hbm, ⟨35, _⟩ => ⟨S256x256, .f32⟩
  | .hbm, ⟨36, _⟩ => ⟨S256x256, .bf16⟩
  | .hbm, ⟨37, _⟩ => ⟨S1x256, .f32⟩
  | .hbm, ⟨38, _⟩ => ⟨S256x256, .bf16⟩
  | .hbm, ⟨39, _⟩ => ⟨S1x256, .f32⟩
  | .hbm, ⟨40, _⟩ => ⟨S1x256, .f32⟩
  | .hbm, ⟨41, _⟩ => ⟨S320000x1, .f32⟩
  | .hbm, ⟨42, _⟩ => ⟨S320000x256, .f32⟩
  | .local _ .vmem, ⟨0, _⟩ => ⟨S3200x256, .bf16⟩
  | .local _ .vmem, ⟨1, _⟩ => ⟨S3200x256, .bf16⟩
  | .local _ .vmem, ⟨2, _⟩ => ⟨S3200x256, .bf16⟩
  | .local _ .vmem, ⟨3, _⟩ => ⟨S3200x256, .bf16⟩
  | .local _ .vmem, ⟨4, _⟩ => ⟨S3200x256, .f32⟩
  | .local _ .vmem, ⟨5, _⟩ => ⟨S3200x256, .f32⟩
  | .local _ .vmem, ⟨6, _⟩ => ⟨S3200x1, .f32⟩
  | .local _ .vmem, ⟨7, _⟩ => ⟨S3200x1, .f32⟩
  | .local _ .vmem, ⟨8, _⟩ => ⟨S256x256, .bf16⟩
  | .local _ .vmem, ⟨9, _⟩ => ⟨S256x256, .bf16⟩
  | .local _ .vmem, ⟨10, _⟩ => ⟨S256x256, .bf16⟩
  | .local _ .vmem, ⟨11, _⟩ => ⟨S1x256, .f32⟩
  | .local _ .vmem, ⟨12, _⟩ => ⟨S1x256, .f32⟩
  | .local _ .vmem, ⟨13, _⟩ => ⟨S256x256, .bf16⟩
  | .local _ .vmem, ⟨14, _⟩ => ⟨S1x256, .f32⟩
  | .local _ .vmem, ⟨15, _⟩ => ⟨S3200x256, .f32⟩
  | .local _ .vmem, ⟨16, _⟩ => ⟨S3200x256, .f32⟩
  | _, _ => ⟨S10000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_c : Ref sig .tc := ⟨.hbm, 13, rfl⟩
abbrev main_v5 : Ref sig .tc := ⟨.hbm, 14, rfl⟩
abbrev main_v6 : Ref sig .tc := ⟨.hbm, 15, rfl⟩
abbrev main_c_0 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_c_1 : Ref sig .tc := ⟨.hbm, 22, rfl⟩
abbrev main_v12 : Ref sig .tc := ⟨.hbm, 23, rfl⟩
abbrev main_v13 : Ref sig .tc := ⟨.hbm, 24, rfl⟩
abbrev main_c_2 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg10_0 : Ref sig .tc := ⟨.vmem, 14, rfl⟩
abbrev cc0_stg11_0 : Ref sig .tc := ⟨.vmem, 15, rfl⟩
abbrev cc0_stg11_1 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem10_0 : DmaSem sig := 14
abbrev cc0_sem11_0 : DmaSem sig := 15
abbrev cc0_sem11_1 : DmaSem sig := 16

abbrev nD : Nat := 1
abbrev τ : Topo := Topo.v7x

variable {F : FTy → Type} [FloatOps F]

abbrev grid0 : Pipeline.Grid := ⟨1, ![100], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S3200x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S3200x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S3200x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S3200x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S256x256 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S256x256 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S256x256 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x256 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S256x256 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x256 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S3200x256 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

class Facts₀ : Prop where
  slices_S2x320000_S1x320000_0_0 : S2x320000.Slices ![0, 0] S1x320000
  shapeCasts_S1x320000_S320000 : S1x320000.ShapeCasts S320000
  slices_S2x320000_S1x320000_1_0 : S2x320000.Slices ![1, 0] S1x320000
  bitsLt_bf16_f32 : FTy.bits .bf16 < FTy.bits .f32
  bcast_S_S320000 : S_.BroadcastsInDim S320000 (![] : Fin 0 → Fin S320000.rank)
  bcast_S320000_S320000x1_0 : S320000.BroadcastsInDim S320000x1 (![0] : Fin 1 → Fin S320000x1.rank)
  slices_S769x256_S256x256_0_0 : S769x256.Slices ![0, 0] S256x256
  slices_S769x256_S256x256_256_0 : S769x256.Slices ![256, 0] S256x256
  slices_S769x256_S256x256_512_0 : S769x256.Slices ![512, 0] S256x256
  slices_S769x256_S1x256_768_0 : S769x256.Slices ![768, 0] S1x256
  shapeCasts_S256_S1x256 : S256.ShapeCasts S1x256
  shapeCasts_S320000_S320000x1 : S320000.ShapeCasts S320000x1
  inb_S3200x256_S3200x256_0_0 : ∀ a, (![0, 0] : Fin 2 → Nat) a + S3200x256.size a ≤ S3200x256.size a
  h_S3200x256 : 0 < S3200x256.numel
  shapeCasts_S3200x256_S3200x256 : S3200x256.ShapeCasts S3200x256
  inb_S3200x1_S3200x1_0_0 : ∀ a, (![0, 0] : Fin 2 → Nat) a + S3200x1.size a ≤ S3200x1.size a
  h_S3200x1 : 0 < S3200x1.numel
  shapeCasts_S3200x1_S3200x1 : S3200x1.ShapeCasts S3200x1
  inb_S256x256_S256x256_0_0 : ∀ a, (![0, 0] : Fin 2 → Nat) a + S256x256.size a ≤ S256x256.size a
  h_S256x256 : 0 < S256x256.numel
  shapeCasts_S256x256_S256x256 : S256x256.ShapeCasts S256x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S3200x1_S3200x256 : S3200x1.Broadcasts S3200x256
  broadcasts_S1x256_S3200x256 : S1x256.Broadcasts S3200x256
  gather_S10000x256_S320000x1_S320000x256_1_0_n_n_0_1_1256_wf : GatherDims.WF S10000x256 S320000x1 S320000x256 [1] [0] [] [0] [] 1 ![1, 256]
  dot_S3200x256_S256x256_S3200x256_1_0_0_1_n_n_wf : DotDims.WF S3200x256 S256x256 S3200x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S3200x256.size a ≤ S320000x256.size a
  hwx0_0 : ∀ i : grid0.Coords, EltTy.bits .bf16 = 32 ∨ (Rect.block (s := S320000x256) S3200x256.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S3200x256.size a ≤ S320000x256.size a
  hwx0_1 : ∀ i : grid0.Coords, EltTy.bits .bf16 = 32 ∨ (Rect.block (s := S320000x256) S3200x256.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S3200x256.size a ≤ S320000x256.size a
  hwx0_2 : ∀ i : grid0.Coords, EltTy.bits .f32 = 32 ∨ (Rect.block (s := S320000x256) S3200x256.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S3200x1.size a ≤ S320000x1.size a
  hwx0_3 : ∀ i : grid0.Coords, EltTy.bits .f32 = 32 ∨ (Rect.block (s := S320000x1) S3200x1.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S256x256.size a ≤ S256x256.size a
  hwx0_4 : ∀ i : grid0.Coords, EltTy.bits .bf16 = 32 ∨ (Rect.block (s := S256x256) S256x256.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S256x256.size a ≤ S256x256.size a
  hwx0_5 : ∀ i : grid0.Coords, EltTy.bits .bf16 = 32 ∨ (Rect.block (s := S256x256) S256x256.size (cc0_transform_5 i) (hinb0_5 i)).WholeWords (EltTy.packing .bf16)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S256x256.size a ≤ S256x256.size a
  hwx0_6 : ∀ i : grid0.Coords, EltTy.bits .bf16 = 32 ∨ (Rect.block (s := S256x256) S256x256.size (cc0_transform_6 i) (hinb0_6 i)).WholeWords (EltTy.packing .bf16)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x256.size a ≤ S1x256.size a
  hwx0_7 : ∀ i : grid0.Coords, EltTy.bits .f32 = 32 ∨ (Rect.block (s := S1x256) S1x256.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x256.size a ≤ S1x256.size a
  hwx0_8 : ∀ i : grid0.Coords, EltTy.bits .f32 = 32 ∨ (Rect.block (s := S1x256) S1x256.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S256x256.size a ≤ S256x256.size a
  hwx0_9 : ∀ i : grid0.Coords, EltTy.bits .bf16 = 32 ∨ (Rect.block (s := S256x256) S256x256.size (cc0_transform_9 i) (hinb0_9 i)).WholeWords (EltTy.packing .bf16)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S1x256.size a ≤ S1x256.size a
  hwx0_10 : ∀ i : grid0.Coords, EltTy.bits .f32 = 32 ∨ (Rect.block (s := S1x256) S1x256.size (cc0_transform_10 i) (hinb0_10 i)).WholeWords (EltTy.packing .f32)
  hstage0_11 : ∀ j, (stage0_11 j).IsWhole
  nbuf0_11 : grid0.bufCount reads0_11 false = 2
  hreads0_11 : ∀ i i' : grid0.Coords, (∀ a, reads0_11 a = true → i a = i' a) → cc0_transform_11 i = cc0_transform_11 i'
  hinb0_11 : ∀ (i : grid0.Coords) a, (cc0_transform_11 i a + 1) * S3200x256.size a ≤ S320000x256.size a
  hwx0_11 : ∀ i : grid0.Coords, EltTy.bits .f32 = 32 ∨ (Rect.block (s := S320000x256) S3200x256.size (cc0_transform_11 i) (hinb0_11 i)).WholeWords (EltTy.packing .f32)

variable [Facts₀]

def gather_S10000x256_S320000x1_S320000x256_1_0_n_n_0_1_1256 : GatherDims S10000x256 S320000x1 S320000x256 where
  offsetDims := [1]
  collapsedSliceDims := [0]
  operandBatchingDims := []
  startIndicesBatchingDims := []
  startIndexMap := [0]
  indexVectorDim := 1
  sliceSizes := ![1, 256]
  wf := gather_S10000x256_S320000x1_S320000x256_1_0_n_n_0_1_1256_wf
def dot_S3200x256_S256x256_S3200x256_1_0_0_1_n_n : DotDims S3200x256 S256x256 S3200x256 where
  lhsContracting := [1]
  rhsContracting := [0]
  lhsNonContracting := [0]
  rhsNonContracting := [1]
  lhsBatch := []
  rhsBatch := []
  wf := dot_S3200x256_S256x256_S3200x256_1_0_0_1_n_n_wf

abbrev win0_0 : Pipeline.Window sig grid0 :=
  Pipeline.Window.ofSpec (Memref.whole main_v11) S3200x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v18) S3200x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S3200x256.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v29) S3200x1.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v20) S256x256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v22) S256x256.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v24) S256x256.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v25) S1x256.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v27) S1x256.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v26) S256x256.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v28) S1x256.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_v30) S3200x256.size cc0_transform_11 reads0_11 true false 2 stage0_11 sem0_11
    hrank0 hreads0_11 hinb0_11 nbuf0_11 (Memref.isWhole_whole _) hwx0_11 hstage0_11

abbrev win0 : Fin 12 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | ⟨_ + 12, h⟩ => absurd h (Nat.not_lt.2 (Nat.le_add_left _ _))
abbrev spec0 : Fin 12 → Pipeline.WinSpec sig grid0.rank := fun w => (win0 w).toWinSpec

class Facts : Prop extends Facts₀ where

variable [Facts]
-- ==== ReferenceIdeal.lean ====
abbrev S10000x256 : Shape := ⟨2, ![10000, 256]⟩
abbrev S2x320000 : Shape := ⟨2, ![2, 320000]⟩
abbrev S320000 : Shape := ⟨1, ![320000]⟩
abbrev S320000x256 : Shape := ⟨2, ![320000, 256]⟩
abbrev S769x256 : Shape := ⟨2, ![769, 256]⟩
abbrev S256 : Shape := ⟨1, ![256]⟩
abbrev S256x256 : Shape := ⟨2, ![256, 256]⟩
abbrev S1x320000 : Shape := ⟨2, ![1, 320000]⟩
abbrev S_ : Shape := ⟨0, ![]⟩
abbrev S320000x1 : Shape := ⟨2, ![320000, 1]⟩
abbrev S320000x769 : Shape := ⟨2, ![320000, 769]⟩
abbrev S1x256 : Shape := ⟨2, ![1, 256]⟩

abbrev nBuf : Space → Nat
  | .hbm => 49
  | .vmem => 0
  | .smem => 0
  | _ => 0

abbrev bufTy : (tb : Table) → Fin (tcTables nBuf tb) → BufTy
  | .hbm, ⟨0, _⟩ => ⟨S10000x256, .f32⟩
  | .hbm, ⟨1, _⟩ => ⟨S2x320000, .i32⟩
  | .hbm, ⟨2, _⟩ => ⟨S320000, .f32⟩
  | .hbm, ⟨3, _⟩ => ⟨S320000x256, .f32⟩
  | .hbm, ⟨4, _⟩ => ⟨S769x256, .f32⟩
  | .hbm, ⟨5, _⟩ => ⟨S256, .f32⟩
  | .hbm, ⟨6, _⟩ => ⟨S256x256, .f32⟩
  | .hbm, ⟨7, _⟩ => ⟨S256, .f32⟩
  | .hbm, ⟨8, _⟩ => ⟨S1x320000, .i32⟩
  | .hbm, ⟨9, _⟩ => ⟨S320000, .i32⟩
  | .hbm, ⟨10, _⟩ => ⟨S1x320000, .i32⟩
  | .hbm, ⟨11, _⟩ => ⟨S320000, .i32⟩
  | .hbm, ⟨12, _⟩ => ⟨S_, .i32⟩
  | .hbm, ⟨13, _⟩ => ⟨S320000, .i32⟩
  | .hbm, ⟨14, _⟩ => ⟨S320000, .i1⟩
  | .hbm, ⟨15, _⟩ => ⟨S_, .i32⟩
  | .hbm, ⟨16, _⟩ => ⟨S320000, .i32⟩
  | .hbm, ⟨17, _⟩ => ⟨S320000, .i32⟩
  | .hbm, ⟨18, _⟩ => ⟨S320000, .i32⟩
  | .hbm, ⟨19, _⟩ => ⟨S320000x1, .i32⟩
  | .hbm, ⟨20, _⟩ => ⟨S320000x256, .f32⟩
  | .hbm, ⟨21, _⟩ => ⟨S_, .i32⟩
  | .hbm, ⟨22, _⟩ => ⟨S320000, .i32⟩
  | .hbm, ⟨23, _⟩ => ⟨S320000, .i1⟩
  | .hbm, ⟨24, _⟩ => ⟨S_, .i32⟩
  | .hbm, ⟨25, _⟩ => ⟨S320000, .i32⟩
  | .hbm, ⟨26, _⟩ => ⟨S320000, .i32⟩
  | .hbm, ⟨27, _⟩ => ⟨S320000, .i32⟩
  | .hbm, ⟨28, _⟩ => ⟨S320000x1, .i32⟩
  | .hbm, ⟨29, _⟩ => ⟨S320000x256, .f32⟩
  | .hbm, ⟨30, _⟩ => ⟨S320000x1, .f32⟩
  | .hbm, ⟨31, _⟩ => ⟨S320000x769, .f32⟩
  | .hbm, ⟨32, _⟩ => ⟨S320000x256, .f32⟩
  | .hbm, ⟨33, _⟩ => ⟨S1x256, .f32⟩
  | .hbm, ⟨34, _⟩ => ⟨S320000x256, .f32⟩
  | .hbm, ⟨35, _⟩ => ⟨S320000x256, .f32⟩
  | .hbm, ⟨36, _⟩ => ⟨S320000x256, .f32⟩
  | .hbm, ⟨37, _⟩ => ⟨S320000x256, .f32⟩
  | .hbm, ⟨38, _⟩ => ⟨S_, .f32⟩
  | .hbm, ⟨39, _⟩ => ⟨S320000x256, .f32⟩
  | .hbm, ⟨40, _⟩ => ⟨S320000x256, .f32⟩
  | .hbm, ⟨41, _⟩ => ⟨S_, .f32⟩
  | .hbm, ⟨42, _⟩ => ⟨S320000x256, .f32⟩
  | .hbm, ⟨43, _⟩ => ⟨S320000x256, .f32⟩
  | .hbm, ⟨44, _⟩ => ⟨S320000x256, .f32⟩
  | .hbm, ⟨45, _⟩ => ⟨S320000x256, .f32⟩
  | .hbm, ⟨46, _⟩ => ⟨S1x256, .f32⟩
  | .hbm, ⟨47, _⟩ => ⟨S320000x256, .f32⟩
  | .hbm, ⟨48, _⟩ => ⟨S320000x256, .f32⟩
  | _, _ => ⟨S10000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_c : Ref sig .tc := ⟨.hbm, 12, rfl⟩
abbrev main_v4 : Ref sig .tc := ⟨.hbm, 13, rfl⟩
abbrev main_v5 : Ref sig .tc := ⟨.hbm, 14, rfl⟩
abbrev main_c_0 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_c_1 : Ref sig .tc := ⟨.hbm, 21, rfl⟩
abbrev main_v11 : Ref sig .tc := ⟨.hbm, 22, rfl⟩
abbrev main_v12 : Ref sig .tc := ⟨.hbm, 23, rfl⟩
abbrev main_c_2 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_call0_v0 : Ref sig .tc := ⟨.hbm, 36, rfl⟩
abbrev main_call0_v1 : Ref sig .tc := ⟨.hbm, 37, rfl⟩
abbrev main_call0_cst : Ref sig .tc := ⟨.hbm, 38, rfl⟩
abbrev main_call0_v2 : Ref sig .tc := ⟨.hbm, 39, rfl⟩
abbrev main_call0_v3 : Ref sig .tc := ⟨.hbm, 40, rfl⟩
abbrev main_call0_cst_0 : Ref sig .tc := ⟨.hbm, 41, rfl⟩
abbrev main_call0_v4 : Ref sig .tc := ⟨.hbm, 42, rfl⟩
abbrev main_call0_v5 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩

abbrev nD : Nat := 1
abbrev τ : Topo := Topo.v7x

variable {F : FTy → Type} [FloatOps F]

class Facts₀ : Prop where
  slices_S2x320000_S1x320000_0_0 : S2x320000.Slices ![0, 0] S1x320000
  shapeCasts_S1x320000_S320000 : S1x320000.ShapeCasts S320000
  slices_S2x320000_S1x320000_1_0 : S2x320000.Slices ![1, 0] S1x320000
  bcast_S_S320000 : S_.BroadcastsInDim S320000 (![] : Fin 0 → Fin S320000.rank)
  bcast_S320000_S320000x1_0 : S320000.BroadcastsInDim S320000x1 (![0] : Fin 1 → Fin S320000x1.rank)
  concatenates_S320000x256_S320000x256_S320000x256_S320000x1_S320000x769_d1 : Shape.Concatenates [S320000x256, S320000x256, S320000x256, S320000x1] S320000x769 1
  bcast_S256_S1x256_1 : S256.BroadcastsInDim S1x256 (![1] : Fin 1 → Fin S1x256.rank)
  bcast_S1x256_S320000x256_0_1 : S1x256.BroadcastsInDim S320000x256 (![0, 1] : Fin 2 → Fin S320000x256.rank)
  bcast_S_S320000x256 : S_.BroadcastsInDim S320000x256 (![] : Fin 0 → Fin S320000x256.rank)
  gather_S10000x256_S320000x1_S320000x256_1_0_n_n_0_1_1256_wf : GatherDims.WF S10000x256 S320000x1 S320000x256 [1] [0] [] [0] [] 1 ![1, 256]
  dot_S320000x769_S769x256_S320000x256_1_0_0_1_n_n_wf : DotDims.WF S320000x769 S769x256 S320000x256 [1] [0] [0] [1] [] []
  dot_S320000x256_S256x256_S320000x256_1_0_0_1_n_n_wf : DotDims.WF S320000x256 S256x256 S320000x256 [1] [0] [0] [1] [] []

variable [Facts₀]

def gather_S10000x256_S320000x1_S320000x256_1_0_n_n_0_1_1256 : GatherDims S10000x256 S320000x1 S320000x256 where
  offsetDims := [1]
  collapsedSliceDims := [0]
  operandBatchingDims := []
  startIndicesBatchingDims := []
  startIndexMap := [0]
  indexVectorDim := 1
  sliceSizes := ![1, 256]
  wf := gather_S10000x256_S320000x1_S320000x256_1_0_n_n_0_1_1256_wf
def dot_S320000x769_S769x256_S320000x256_1_0_0_1_n_n : DotDims S320000x769 S769x256 S320000x256 where
  lhsContracting := [1]
  rhsContracting := [0]
  lhsNonContracting := [0]
  rhsNonContracting := [1]
  lhsBatch := []
  rhsBatch := []
  wf := dot_S320000x769_S769x256_S320000x256_1_0_0_1_n_n_wf
def dot_S320000x256_S256x256_S320000x256_1_0_0_1_n_n : DotDims S320000x256 S256x256 S320000x256 where
  lhsContracting := [1]
  rhsContracting := [0]
  lhsNonContracting := [0]
  rhsNonContracting := [1]
  lhsBatch := []
  rhsBatch := []
  wf := dot_S320000x256_S256x256_S320000x256_1_0_0_1_n_n_wf

class Facts : Prop extends Facts₀ where

variable [Facts]
-- ==== Proof.Spec.lean ====
/-
  The edge-update network as ONE function of its arrays, index by index, on the extended reals, and the law that
  joins its two spellings.

  For edge `e` with gathered sender row `s e`, receiver row `r e`, state row `x e` and length `l e`, the hidden
  layer is the row vector `[s e, r e, x e, l e] · W1 + b1` (769 = 256 + 256 + 256 + 1 inputs, 256 outputs), the
  activation is `silu h = h · σ(h)` with `σ h = 1 / (1 + e^(-h))`, and the result is `silu(hidden) · W2 + b2`.
  `hidden` below adds the four row groups of `W1` separately; `sum_rows` says that a sum over all 769 rows is the
  sum of the three groups of 256 and the last row, which holds in any commutative monoid (no finiteness is used:
  only the order and grouping of a sum change).
-/
import Idealize.ShloMosaic.PureOps.Ideal
import Idealize.ShloMosaic.PureOps.Ideal.Laws
import Idealize.ShloMosaic.Lib.ValueIdx

noncomputable section

namespace EdgeMlp

open Idealize.ShloMosaic Idealize.ShloMosaic.ValueIdx

/-- A matrix of extended reals over a literal two-axis shape. -/
abbrev Mat (n0 n1 : Nat) := (⟨2, ![n0, n1]⟩ : Shape).Idx → EReal
/-- A vector of extended reals over a literal one-axis shape. -/
abbrev Row (n : Nat) := (⟨1, ![n]⟩ : Shape).Idx → EReal

/-- Row `q` of the sender group of `W1` (rows 0 … 255). -/
def rowS (q : Fin 256) : Fin 769 := ⟨q.val, Nat.lt_of_lt_of_le q.isLt (by decide)⟩
/-- Row `q` of the receiver group of `W1` (rows 256 … 511). -/
def rowR (q : Fin 256) : Fin 769 := ⟨256 + q.val, by have := q.isLt; omega⟩
/-- Row `q` of the edge-state group of `W1` (rows 512 … 767). -/
def rowE (q : Fin 256) : Fin 769 := ⟨512 + q.val, by have := q.isLt; omega⟩
/-- The last row of `W1` (row 768), which multiplies the edge length. -/
def rowL : Fin 769 := ⟨768, by decide⟩

/-- The hidden layer before the activation, at edge `e` and unit `k`: the four row groups of `W1` added in the
    order sender, receiver, edge state, length, then the bias. -/
def hidden (s r x : Mat 320000 256) (l : Row 320000) (w1 : Mat 769 256) (b1 : Row 256) (e : Fin 320000) (k : Fin 256) : EReal :=
  ((((∑ q : Fin 256, s (ix2 e q) * w1 (ix2 (rowS q) k)) + ∑ q : Fin 256, r (ix2 e q) * w1 (ix2 (rowR q) k))
      + ∑ q : Fin 256, x (ix2 e q) * w1 (ix2 (rowE q) k)) + l (ix1 e) * w1 (ix2 rowL k)) + b1 (ix1 k)

/-- `silu h = h · σ(h)`. -/
def silu (h : EReal) : EReal := h * Ideal.logistic h

/-- The network's result at edge `e` and output unit `j`. -/
def out (s r x : Mat 320000 256) (l : Row 320000) (w1 : Mat 769 256) (b1 : Row 256) (w2 : Mat 256 256) (b2 : Row 256)
    (e : Fin 320000) (j : Fin 256) : EReal :=
  (∑ k : Fin 256, silu (hidden s r x l w1 b1 e k) * w2 (ix2 k j)) + b2 (ix1 j)

/-- A sum over the 769 rows of `W1` is the sum over its three groups of 256 rows and its last row. -/
theorem sum_rows {M : Type} [AddCommMonoid M] (f : Fin 769 → M) :
    ∑ k : Fin 769, f k = ((∑ q : Fin 256, f (rowS q) + ∑ q : Fin 256, f (rowR q)) + ∑ q : Fin 256, f (rowE q)) + f rowL := by
  have h1 : ∑ k : Fin 769, f k = ∑ k : Fin (768 + 1), f k := rfl
  have h2 : ∀ g : Fin 768 → M, ∑ k : Fin 768, g k = ∑ k : Fin (512 + 256), g k := fun _ => rfl
  have h3 : ∀ g : Fin 512 → M, ∑ k : Fin 512, g k = ∑ k : Fin (256 + 256), g k := fun _ => rfl
  rw [h1, Fin.sum_univ_add, h2, Fin.sum_univ_add, h3, Fin.sum_univ_add, Fin.sum_univ_one]
  rfl

end EdgeMlp

end
-- ==== Proof.KernelBlock.lean ====
/-
  One block of the kernel's output, read at an index.

  At a grid point the body holds a block of 3200 edges: their gathered sender rows `P0`, receiver rows `P1`, state
  rows `P2` and lengths `P3` (a column), and the whole of the three 256-row groups of `W1` (`P4`, `P5`, `P6`), its
  last row `P7`, the bias `P8`, `W2` (`P9`) and the second bias `P10`. It forms three matrix products into zero
  accumulators, adds them, adds the outer product of the length column with the last row of `W1` and the bias,
  applies `h ↦ h · σ(h)`, multiplies by `W2` and adds the second bias. On the extended reals a change of float
  format is the identity and a matrix product into a zero accumulator is the plain sum over the contracted axis, so
  the block at row `p` and column `q` is `(∑ k, silu (bhidden p k) · P9 k q) + P10 q`.
-/
import proofs.«133708_j35691178230144_2_alg».proof.Proof.Gen.KernelIdeal.Value
import proofs.«133708_j35691178230144_2_alg».proof.Proof.Spec
import Idealize.ShloMosaic.Lib.Pipeline.Value
import Idealize.ShloMosaic.Lib.ValueIdx
import Idealize.ShloMosaic.PureOps.Ideal.Laws

noncomputable section

namespace Cert.KernelIdeal.BlockValue

open Cert.KernelIdeal Cert.KernelIdeal.Gen Idealize.ShloMosaic Idealize.ShloMosaic.ValueIdx EdgeMlp

/-! ## A matrix product of a block by a 256 × 256 matrix, at an index -/

/-- The left operand's row index in the product is the result's row. -/
theorem lhs_row (i : S3200x256.Idx) (c : dot_S3200x256_S256x256_S3200x256_1_0_0_1_n_n.contr.Idx) :
    (dot_S3200x256_S256x256_S3200x256_1_0_0_1_n_n.lhsIdx i c 0).val = (i 0).val := by
  unfold DotDims.lhsIdx
  rw [dif_neg (show ¬(0 : Fin S3200x256.rank) ∈ dot_S3200x256_S256x256_S3200x256_1_0_0_1_n_n.lhsBatch by decide),
    dif_pos (show (0 : Fin S3200x256.rank) ∈ dot_S3200x256_S256x256_S3200x256_1_0_0_1_n_n.lhsNonContracting by decide)]
  rfl

/-- The right operand's column index in the product is the result's column. -/
theorem rhs_col (i : S3200x256.Idx) (c : dot_S3200x256_S256x256_S3200x256_1_0_0_1_n_n.contr.Idx) :
    (dot_S3200x256_S256x256_S3200x256_1_0_0_1_n_n.rhsIdx i c 1).val = (i 1).val := by
  unfold DotDims.rhsIdx
  rw [dif_neg (show ¬(1 : Fin S256x256.rank) ∈ dot_S3200x256_S256x256_S3200x256_1_0_0_1_n_n.rhsBatch by decide),
    dif_pos (show (1 : Fin S256x256.rank) ∈ dot_S3200x256_S256x256_S3200x256_1_0_0_1_n_n.rhsNonContracting by decide)]
  rfl

/-- The product into a zero accumulator at row `p`, column `q`: the sum over the 256 contracted entries. -/
theorem matmul_at {φ₁ φ₂ : FTy} (lhs : FVec Ideal S3200x256 φ₁) (rhs : FVec Ideal S256x256 φ₂) (p : Fin 3200) (q : Fin 256) :
    matmul dot_S3200x256_S256x256_S3200x256_1_0_0_1_n_n none lhs rhs (constant (F := Ideal) S3200x256 .f32 0x00000000#32) (ix2 p q)
      = ∑ a : Fin 256, lhs (ix2 p a) * rhs (ix2 a q) := by
  refine (Ideal.matmul_constant_zero_apply dot_S3200x256_S256x256_S3200x256_1_0_0_1_n_n none lhs rhs (ix2 p q)).trans ?_
  rw [← Equiv.sum_comp (contrEquiv1 dot_S3200x256_S256x256_S3200x256_1_0_0_1_n_n 256 rfl rfl).symm]
  refine Finset.sum_congr rfl fun k _ => ?_
  have hk := contrEquiv1_symm_val dot_S3200x256_S256x256_S3200x256_1_0_0_1_n_n 256 rfl rfl k
  have el : dot_S3200x256_S256x256_S3200x256_1_0_0_1_n_n.lhsIdx (ix2 p q)
      ((contrEquiv1 dot_S3200x256_S256x256_S3200x256_1_0_0_1_n_n 256 rfl rfl).symm k) = ix2 p k :=
    funext fun a => Fin.ext (by
      match a with
      | ⟨0, _⟩ => exact lhs_row _ _
      | ⟨1, _⟩ => exact (dot_S3200x256_S256x256_S3200x256_1_0_0_1_n_n.lhsIdx_val_of_single rfl _ _).trans hk)
  have er : dot_S3200x256_S256x256_S3200x256_1_0_0_1_n_n.rhsIdx (ix2 p q)
      ((contrEquiv1 dot_S3200x256_S256x256_S3200x256_1_0_0_1_n_n 256 rfl rfl).symm k) = ix2 k q :=
    funext fun a => Fin.ext (by
      match a with
      | ⟨0, _⟩ => exact (dot_S3200x256_S256x256_S3200x256_1_0_0_1_n_n.rhsIdx_val_of_single rfl _ _).trans hk
      | ⟨1, _⟩ => exact rhs_col _ _)
  rw [el, er]

/-! ## The hidden layer of a block -/

variable (P0 P1 : Vec Ideal S3200x256 .bf16) (P2 : Vec Ideal S3200x256 .f32) (P3 : Vec Ideal S3200x1 .f32)
  (P4 P5 P6 : Vec Ideal S256x256 .bf16) (P7 P8 : Vec Ideal S1x256 .f32) (P9 : Vec Ideal S256x256 .bf16) (P10 : Vec Ideal S1x256 .f32)

/-- The hidden layer before the activation, as the body's operations spell it on a block. -/
def pre : FVec Ideal S3200x256 .f32 :=
  addf (addf (addf (addf
      (matmul dot_S3200x256_S256x256_S3200x256_1_0_0_1_n_n none (shapeCast S3200x256 P0 shapeCasts_S3200x256_S3200x256 : FVec Ideal S3200x256 .bf16) (shapeCast S256x256 P4 shapeCasts_S256x256_S256x256 : FVec Ideal S256x256 .bf16) (constant (F := Ideal) S3200x256 .f32 0x00000000#32))
      (matmul dot_S3200x256_S256x256_S3200x256_1_0_0_1_n_n none (shapeCast S3200x256 P1 shapeCasts_S3200x256_S3200x256 : FVec Ideal S3200x256 .bf16) (shapeCast S256x256 P5 shapeCasts_S256x256_S256x256 : FVec Ideal S256x256 .bf16) (constant (F := Ideal) S3200x256 .f32 0x00000000#32)))
      (matmul dot_S3200x256_S256x256_S3200x256_1_0_0_1_n_n none (truncf (F := Ideal) .bf16 (P2 : FVec Ideal S3200x256 .f32) bitsLt_bf16_f32 : FVec Ideal S3200x256 .bf16) (shapeCast S256x256 P6 shapeCasts_S256x256_S256x256 : FVec Ideal S256x256 .bf16) (constant (F := Ideal) S3200x256 .f32 0x00000000#32)))
      (mulf (broadcastTo S3200x256 (shapeCast S3200x1 P3 shapeCasts_S3200x1_S3200x1 : FVec Ideal S3200x1 .f32) broadcasts_S3200x1_S3200x256 : FVec Ideal S3200x256 .f32)
        (broadcastTo S3200x256 (shapeCast S1x256 P7 shapeCasts_S1x256_S1x256 : FVec Ideal S1x256 .f32) broadcasts_S1x256_S3200x256 : FVec Ideal S3200x256 .f32)))
    (broadcastTo S3200x256 (shapeCast S1x256 P8 shapeCasts_S1x256_S1x256 : FVec Ideal S1x256 .f32) broadcasts_S1x256_S3200x256 : FVec Ideal S3200x256 .f32)

/-- The same, as sums: row `p` of the block against column `k` of each group of `W1`, the length times the last
    row, the bias. -/
def bhidden (p : Fin 3200) (k : Fin 256) : EReal :=
  ((((∑ a : Fin 256, P0 (ix2 p a) * P4 (ix2 a k)) + ∑ a : Fin 256, P1 (ix2 p a) * P5 (ix2 a k))
      + ∑ a : Fin 256, P2 (ix2 p a) * P6 (ix2 a k)) + P3 (ix2 p (0 : Fin 1)) * P7 (ix2 (0 : Fin 1) k)) + P8 (ix2 (0 : Fin 1) k)

/-- A column of lengths broadcast along the row, at an index. -/
theorem len_at (p : Fin 3200) (k : Fin 256) :
    broadcastTo S3200x256 (shapeCast S3200x1 P3 shapeCasts_S3200x1_S3200x1 : FVec Ideal S3200x1 .f32) broadcasts_S3200x1_S3200x256 (ix2 p k)
      = P3 (ix2 p (0 : Fin 1)) := by
  refine (broadcastTo_apply _ _ (ix2 p k) (ix2 p (0 : Fin 1)) (fun a => match a with
    | ⟨0, _⟩ => by show p.val = (if (3200 : Nat) = 1 then 0 else p.val); rw [if_neg (by decide)]
    | ⟨1, _⟩ => by show 0 = (if (1 : Nat) = 1 then 0 else k.val); rw [if_pos rfl])).trans ?_
  rw [shapeCast_self]

/-- A row vector broadcast down the block, at an index. -/
theorem row_at (P : Vec Ideal S1x256 .f32) (p : Fin 3200) (k : Fin 256) :
    broadcastTo S3200x256 (shapeCast S1x256 P shapeCasts_S1x256_S1x256 : FVec Ideal S1x256 .f32) broadcasts_S1x256_S3200x256 (ix2 p k)
      = P (ix2 (0 : Fin 1) k) := by
  refine (broadcastTo_apply _ _ (ix2 p k) (ix2 (0 : Fin 1) k) (fun a => match a with
    | ⟨0, _⟩ => by show 0 = (if (1 : Nat) = 1 then 0 else p.val); rw [if_pos rfl]
    | ⟨1, _⟩ => by show k.val = (if (256 : Nat) = 1 then 0 else k.val); rw [if_neg (by decide)])).trans ?_
  rw [shapeCast_self]

/-- The body's hidden layer at row `p`, unit `k` is `bhidden`. -/
theorem pre_at (p : Fin 3200) (k : Fin 256) :
    pre P0 P1 P2 P3 P4 P5 P6 P7 P8 (ix2 p k) = bhidden P0 P1 P2 P3 P4 P5 P6 P7 P8 p k := by
  have e1 : matmul dot_S3200x256_S256x256_S3200x256_1_0_0_1_n_n none (shapeCast S3200x256 P0 shapeCasts_S3200x256_S3200x256 : FVec Ideal S3200x256 .bf16) (shapeCast S256x256 P4 shapeCasts_S256x256_S256x256 : FVec Ideal S256x256 .bf16) (constant (F := Ideal) S3200x256 .f32 0x00000000#32) (ix2 p k)
      = ∑ a : Fin 256, P0 (ix2 p a) * P4 (ix2 a k) :=
    (matmul_at _ _ p k).trans (Finset.sum_congr rfl fun a _ => by rw [shapeCast_self, shapeCast_self])
  have e2 : matmul dot_S3200x256_S256x256_S3200x256_1_0_0_1_n_n none (shapeCast S3200x256 P1 shapeCasts_S3200x256_S3200x256 : FVec Ideal S3200x256 .bf16) (shapeCast S256x256 P5 shapeCasts_S256x256_S256x256 : FVec Ideal S256x256 .bf16) (constant (F := Ideal) S3200x256 .f32 0x00000000#32) (ix2 p k)
      = ∑ a : Fin 256, P1 (ix2 p a) * P5 (ix2 a k) :=
    (matmul_at _ _ p k).trans (Finset.sum_congr rfl fun a _ => by rw [shapeCast_self, shapeCast_self])
  have e3 : matmul dot_S3200x256_S256x256_S3200x256_1_0_0_1_n_n none (truncf (F := Ideal) .bf16 (P2 : FVec Ideal S3200x256 .f32) bitsLt_bf16_f32 : FVec Ideal S3200x256 .bf16) (shapeCast S256x256 P6 shapeCasts_S256x256_S256x256 : FVec Ideal S256x256 .bf16) (constant (F := Ideal) S3200x256 .f32 0x00000000#32) (ix2 p k)
      = ∑ a : Fin 256, P2 (ix2 p a) * P6 (ix2 a k) :=
    (matmul_at _ _ p k).trans (Finset.sum_congr rfl fun a _ => by rw [shapeCast_self]; rfl)
  unfold pre bhidden
  exact congrArg₂ (· + ·) (congrArg₂ (· + ·) (congrArg₂ (· + ·) (congrArg₂ (· + ·) e1 e2) e3)
    (congrArg₂ (· * ·) (len_at P3 p k) (row_at P7 p k))) (row_at P8 p k)

/-! ## The payload and the block -/

/-- The body's first payload is the product of the activated hidden layer with `W2`. -/
theorem pay2_eq : k0_pay2 (F := Ideal) P0 P1 P2 P3 P4 P5 P6 P7 P8 P9
    = matmul dot_S3200x256_S256x256_S3200x256_1_0_0_1_n_n none
        (truncf (F := Ideal) .bf16 (mulf (pre P0 P1 P2 P3 P4 P5 P6 P7 P8) (logistic (pre P0 P1 P2 P3 P4 P5 P6 P7 P8))) bitsLt_bf16_f32)
        (shapeCast S256x256 P9 shapeCasts_S256x256_S256x256 : FVec Ideal S256x256 .bf16) (constant (F := Ideal) S3200x256 .f32 0x00000000#32) := rfl

/-- The payload at row `p`, column `q`. -/
theorem pay2_at (p : Fin 3200) (q : Fin 256) :
    k0_pay2 (F := Ideal) P0 P1 P2 P3 P4 P5 P6 P7 P8 P9 (ix2 p q)
      = ∑ k : Fin 256, silu (bhidden P0 P1 P2 P3 P4 P5 P6 P7 P8 p k) * P9 (ix2 k q) := by
  rw [pay2_eq]
  refine (matmul_at _ _ p q).trans (Finset.sum_congr rfl fun k _ => ?_)
  rw [shapeCast_self]
  show (pre P0 P1 P2 P3 P4 P5 P6 P7 P8 (ix2 p k) * Ideal.logistic (pre P0 P1 P2 P3 P4 P5 P6 P7 P8 (ix2 p k))) * P9 (ix2 k q) = _
  rw [pre_at]
  rfl

/-- THE BLOCK at row `p`, column `q`: the payload plus the second bias. -/
theorem block_at (p : Fin 3200) (q : Fin 256) :
    Value.E11 (F := Ideal) P0 P1 P2 P3 P4 P5 P6 P7 P8 P9 P10 (ix2 p q)
      = (∑ k : Fin 256, silu (bhidden P0 P1 P2 P3 P4 P5 P6 P7 P8 p k) * P9 (ix2 k q)) + P10 (ix2 (0 : Fin 1) q) := by
  have i0 : Value.ix11_0 (ix2 p q) = ix2 p q := funext fun a => match a with | ⟨0, _⟩ => rfl | ⟨1, _⟩ => rfl
  have i1 : Value.ix11_1 (ix2 p q) = ix2 (0 : Fin 1) q := funext fun a => match a with | ⟨0, _⟩ => rfl | ⟨1, _⟩ => rfl
  show k0_pay2 (F := Ideal) P0 P1 P2 P3 P4 P5 P6 P7 P8 P9 (Value.ix11_0 (ix2 p q)) + P10 (Value.ix11_1 (ix2 p q)) = _
  rw [i0, i1, pay2_at]

/-! ## A block of the whole arrays is a block of the specification -/

/-- If the block's loads are the whole arrays' entries at the edges `ed p` (row `p` of the block is edge `ed p`; the
    weights and biases are the same at every block), the block at row `p`, column `q` is the network's result at
    edge `ed p`, unit `q`: term by term the two sums are the same. -/
theorem block_is_out (s r x : Mat 320000 256) (l : Row 320000) (w1 : Mat 769 256) (b1 : Row 256) (w2 : Mat 256 256) (b2 : Row 256)
    (ed : Fin 3200 → Fin 320000)
    (h0 : ∀ (p : Fin 3200) (a : Fin 256), P0 (ix2 p a) = s (ix2 (ed p) a))
    (h1 : ∀ (p : Fin 3200) (a : Fin 256), P1 (ix2 p a) = r (ix2 (ed p) a))
    (h2 : ∀ (p : Fin 3200) (a : Fin 256), P2 (ix2 p a) = x (ix2 (ed p) a))
    (h3 : ∀ p : Fin 3200, P3 (ix2 p (0 : Fin 1)) = l (ix1 (ed p)))
    (h4 : ∀ a k : Fin 256, P4 (ix2 a k) = w1 (ix2 (rowS a) k))
    (h5 : ∀ a k : Fin 256, P5 (ix2 a k) = w1 (ix2 (rowR a) k))
    (h6 : ∀ a k : Fin 256, P6 (ix2 a k) = w1 (ix2 (rowE a) k))
    (h7 : ∀ k : Fin 256, P7 (ix2 (0 : Fin 1) k) = w1 (ix2 rowL k))
    (h8 : ∀ k : Fin 256, P8 (ix2 (0 : Fin 1) k) = b1 (ix1 k))
    (h9 : ∀ k j : Fin 256, P9 (ix2 k j) = w2 (ix2 k j))
    (h10 : ∀ j : Fin 256, P10 (ix2 (0 : Fin 1) j) = b2 (ix1 j))
    (p : Fin 3200) (q : Fin 256) :
    Value.E11 (F := Ideal) P0 P1 P2 P3 P4 P5 P6 P7 P8 P9 P10 (ix2 p q) = out s r x l w1 b1 w2 b2 (ed p) q := by
  rw [block_at]
  unfold EdgeMlp.out EdgeMlp.hidden bhidden
  simp only [h0, h1, h2, h3, h4, h5, h6, h7, h8, h9, h10]

end Cert.KernelIdeal.BlockValue

end
-- ==== Proof.KernelArrays.lean ====
/-
  What the region finds in each window's array.

  Before the region the host gathers the rows of the node table named by the edge's sender and by its receiver (a
  negative index first moved up by the table's 10000 rows), cuts `W1` into its three groups of 256 rows and its last
  row, and reshapes the two biases into rows and the edge lengths into a column; a change of float format is the
  identity on the extended reals. The two gathered arrays are named and kept whole (`senderRows`, `receiverRows`);
  the others are read at an index in terms of the arguments.
-/
import proofs.«133708_j35691178230144_2_alg».proof.Proof.Gen.KernelIdeal.Value
import proofs.«133708_j35691178230144_2_alg».proof.Proof.Spec
import Idealize.ShloMosaic.Lib.Pipeline.Value
import Idealize.ShloMosaic.Lib.ValueIdx
import Idealize.ShloMosaic.Lib.StableHlo.Run
import Idealize.ShloMosaic.PureOps.Ideal

noncomputable section

namespace Cert.KernelIdeal.EntryValue

open Cert.KernelIdeal Cert.KernelIdeal.Gen Idealize.ShloMosaic Idealize.ShloMosaic.TcCoe Idealize.SL.Sem
open Idealize.ShloMosaic.StableHlo Idealize.ShloMosaic.ValueIdx EdgeMlp

variable (m : (ℓ : Loc nD τ sig) → Buf (Elt Ideal) ℓ)

/-! ## The gathered rows -/

/-- The rows of the node table at each edge's sender. -/
def senderRows (c : Dev nD) : S320000x256.Idx → EReal :=
  Host.gather gather_S10000x256_S320000x1_S320000x256_1_0_n_n_0_1_1256
    (truncf (F := Ideal) .bf16 (m ((c : Thread nD τ).loc main_arg0)) bitsLt_bf16_f32)
    (broadcastInDim S320000x1 ![0] bcast_S320000_S320000x1_0
        (select (cmpi .slt (shapeCast _ (extractStridedSlice S1x320000 ![0, 0] (m ((c : Thread nD τ).loc main_arg1)) slices_S2x320000_S1x320000_0_0) shapeCasts_S1x320000_S320000)
            (broadcastInDim S320000 ![] bcast_S_S320000 (constantI S_ 32 0#32)))
          (addi (shapeCast _ (extractStridedSlice S1x320000 ![0, 0] (m ((c : Thread nD τ).loc main_arg1)) slices_S2x320000_S1x320000_0_0) shapeCasts_S1x320000_S320000)
            (broadcastInDim S320000 ![] bcast_S_S320000 (constantI S_ 32 10000#32)))
          (shapeCast _ (extractStridedSlice S1x320000 ![0, 0] (m ((c : Thread nD τ).loc main_arg1)) slices_S2x320000_S1x320000_0_0) shapeCasts_S1x320000_S320000)))

/-- The rows of the node table at each edge's receiver. -/
def receiverRows (c : Dev nD) : S320000x256.Idx → EReal :=
  Host.gather gather_S10000x256_S320000x1_S320000x256_1_0_n_n_0_1_1256
    (truncf (F := Ideal) .bf16 (m ((c : Thread nD τ).loc main_arg0)) bitsLt_bf16_f32)
    (broadcastInDim S320000x1 ![0] bcast_S320000_S320000x1_0
        (select (cmpi .slt (shapeCast _ (extractStridedSlice S1x320000 ![1, 0] (m ((c : Thread nD τ).loc main_arg1)) slices_S2x320000_S1x320000_1_0) shapeCasts_S1x320000_S320000)
            (broadcastInDim S320000 ![] bcast_S_S320000 (constantI S_ 32 0#32)))
          (addi (shapeCast _ (extractStridedSlice S1x320000 ![1, 0] (m ((c : Thread nD τ).loc main_arg1)) slices_S2x320000_S1x320000_1_0) shapeCasts_S1x320000_S320000)
            (broadcastInDim S320000 ![] bcast_S_S320000 (constantI S_ 32 10000#32)))
          (shapeCast _ (extractStridedSlice S1x320000 ![1, 0] (m ((c : Thread nD τ).loc main_arg1)) slices_S2x320000_S1x320000_1_0) shapeCasts_S1x320000_S320000)))

set_option maxHeartbeats 2000000 in
theorem V_sender (c : Dev nD) : (V m c main_v11 : S320000x256.Idx → EReal) = senderRows m c := by
  dsimp only [Gen.V, Gen.hostOps0]; after_results <;> rfl

set_option maxHeartbeats 2000000 in
theorem V_receiver (c : Dev nD) : (V m c main_v18 : S320000x256.Idx → EReal) = receiverRows m c := by
  dsimp only [Gen.V, Gen.hostOps0]; after_results <;> rfl

/-! ## The edge lengths as a column -/

theorem V_len (c : Dev nD) : (V m c main_v29 : S320000x1.Idx → EReal)
    = shapeCast S320000x1 (m ((c : Thread nD τ).loc main_arg2)) shapeCasts_S320000_S320000x1 := by
  dsimp only [Gen.V, Gen.hostOps0]; after_results <;> rfl

theorem len_at (c : Dev nD) (e : Fin 320000) :
    (V m c main_v29 : S320000x1.Idx → EReal) (ix2 e (0 : Fin 1)) = (m ((c : Thread nD τ).loc main_arg2)) (ix1 e) := by
  rw [V_len]
  exact shapeCast_apply _ _ (ix2 e (0 : Fin 1)) (ix1 e)
    (by rewrite [Shape.rowMajor_val_one, Shape.rowMajor_val_two]; show e.val = e.val * 1 + 0; omega)

/-! ## The row groups of `W1` -/

theorem V_w1s (c : Dev nD) : (V m c main_v20 : S256x256.Idx → EReal)
    = truncf (F := Ideal) .bf16 (extractStridedSlice S256x256 ![0, 0] (m ((c : Thread nD τ).loc main_arg4)) slices_S769x256_S256x256_0_0 : FVec Ideal S256x256 .f32) bitsLt_bf16_f32 := by
  dsimp only [Gen.V, Gen.hostOps0]; after_results <;> rfl

theorem w1s_at (c : Dev nD) (a k : Fin 256) :
    (V m c main_v20 : S256x256.Idx → EReal) (ix2 a k) = (m ((c : Thread nD τ).loc main_arg4)) (ix2 (rowS a) k) := by
  rw [V_w1s]
  exact extractStridedSlice_apply ![0, 0] _ slices_S769x256_S256x256_0_0 (ix2 a k) (ix2 (rowS a) k) (fun b => match b with
    | ⟨0, _⟩ => by show a.val = 0 + a.val; omega
    | ⟨1, _⟩ => by show k.val = 0 + k.val; omega)

theorem V_w1r (c : Dev nD) : (V m c main_v22 : S256x256.Idx → EReal)
    = truncf (F := Ideal) .bf16 (extractStridedSlice S256x256 ![256, 0] (m ((c : Thread nD τ).loc main_arg4)) slices_S769x256_S256x256_256_0 : FVec Ideal S256x256 .f32) bitsLt_bf16_f32 := by
  dsimp only [Gen.V, Gen.hostOps0]; after_results <;> rfl

theorem w1r_at (c : Dev nD) (a k : Fin 256) :
    (V m c main_v22 : S256x256.Idx → EReal) (ix2 a k) = (m ((c : Thread nD τ).loc main_arg4)) (ix2 (rowR a) k) := by
  rw [V_w1r]
  exact extractStridedSlice_apply ![256, 0] _ slices_S769x256_S256x256_256_0 (ix2 a k) (ix2 (rowR a) k) (fun b => match b with
    | ⟨0, _⟩ => by show 256 + a.val = 256 + a.val; omega
    | ⟨1, _⟩ => by show k.val = 0 + k.val; omega)

theorem V_w1e (c : Dev nD) : (V m c main_v24 : S256x256.Idx → EReal)
    = truncf (F := Ideal) .bf16 (extractStridedSlice S256x256 ![512, 0] (m ((c : Thread nD τ).loc main_arg4)) slices_S769x256_S256x256_512_0 : FVec Ideal S256x256 .f32) bitsLt_bf16_f32 := by
  dsimp only [Gen.V, Gen.hostOps0]; after_results <;> rfl

theorem w1e_at (c : Dev nD) (a k : Fin 256) :
    (V m c main_v24 : S256x256.Idx → EReal) (ix2 a k) = (m ((c : Thread nD τ).loc main_arg4)) (ix2 (rowE a) k) := by
  rw [V_w1e]
  exact extractStridedSlice_apply ![512, 0] _ slices_S769x256_S256x256_512_0 (ix2 a k) (ix2 (rowE a) k) (fun b => match b with
    | ⟨0, _⟩ => by show 512 + a.val = 512 + a.val; omega
    | ⟨1, _⟩ => by show k.val = 0 + k.val; omega)

theorem V_w1l (c : Dev nD) : (V m c main_v25 : S1x256.Idx → EReal)
    = extractStridedSlice S1x256 ![768, 0] (m ((c : Thread nD τ).loc main_arg4)) slices_S769x256_S1x256_768_0 := by
  dsimp only [Gen.V, Gen.hostOps0]; after_results <;> rfl

theorem w1l_at (c : Dev nD) (k : Fin 256) :
    (V m c main_v25 : S1x256.Idx → EReal) (ix2 (0 : Fin 1) k) = (m ((c : Thread nD τ).loc main_arg4)) (ix2 rowL k) := by
  rw [V_w1l]
  exact extractStridedSlice_apply ![768, 0] _ slices_S769x256_S1x256_768_0 (ix2 (0 : Fin 1) k) (ix2 rowL k) (fun b => match b with
    | ⟨0, _⟩ => by show 768 = 768 + 0; omega
    | ⟨1, _⟩ => by show k.val = 0 + k.val; omega)

/-! ## The biases as rows, and `W2` -/

theorem V_b1 (c : Dev nD) : (V m c main_v27 : S1x256.Idx → EReal)
    = shapeCast S1x256 (m ((c : Thread nD τ).loc main_arg5)) shapeCasts_S256_S1x256 := by
  dsimp only [Gen.V, Gen.hostOps0]; after_results <;> rfl

theorem b1_at (c : Dev nD) (k : Fin 256) :
    (V m c main_v27 : S1x256.Idx → EReal) (ix2 (0 : Fin 1) k) = (m ((c : Thread nD τ).loc main_arg5)) (ix1 k) := by
  rw [V_b1]
  exact shapeCast_apply _ _ (ix2 (0 : Fin 1) k) (ix1 k)
    (by rewrite [Shape.rowMajor_val_one, Shape.rowMajor_val_two]; show k.val = 0 * 256 + k.val; omega)

theorem V_b2 (c : Dev nD) : (V m c main_v28 : S1x256.Idx → EReal)
    = shapeCast S1x256 (m ((c : Thread nD τ).loc main_arg7)) shapeCasts_S256_S1x256 := by
  dsimp only [Gen.V, Gen.hostOps0]; after_results <;> rfl

theorem b2_at (c : Dev nD) (j : Fin 256) :
    (V m c main_v28 : S1x256.Idx → EReal) (ix2 (0 : Fin 1) j) = (m ((c : Thread nD τ).loc main_arg7)) (ix1 j) := by
  rw [V_b2]
  exact shapeCast_apply _ _ (ix2 (0 : Fin 1) j) (ix1 j)
    (by rewrite [Shape.rowMajor_val_one, Shape.rowMajor_val_two]; show j.val = 0 * 256 + j.val; omega)

theorem V_w2 (c : Dev nD) : (V m c main_v26 : S256x256.Idx → EReal)
    = truncf (F := Ideal) .bf16 ((m ((c : Thread nD τ).loc main_arg6)) : FVec Ideal S256x256 .f32) bitsLt_bf16_f32 := by
  dsimp only [Gen.V, Gen.hostOps0]; after_results <;> rfl

theorem w2_at (c : Dev nD) (k j : Fin 256) :
    (V m c main_v26 : S256x256.Idx → EReal) (ix2 k j) = (m ((c : Thread nD τ).loc main_arg6)) (ix2 k j) := by
  rw [V_w2]; rfl

end Cert.KernelIdeal.EntryValue

end
-- ==== Proof.KernelValue.lean ====
/-
  From blocks to the whole array.

  The grid has 100 points; point `t` handles edges `3200 t … 3200 t + 3199`: the windows of the gathered rows, the
  edge states, the lengths and the output are at block `(t, 0)`, and the windows of the weights and biases stay at
  block `(0, 0)`. So row `p` of every per-edge block at point `t` is edge `3200 t + p` of its array, what point `t`
  writes back is block `t` of the network's result `G` (the whole-array function of the arguments), every row of the
  output lies in the block of point `row / 3200`, and the output array ends as `G`.
-/
import proofs.«133708_j35691178230144_2_alg».proof.Proof.KernelBlock
import proofs.«133708_j35691178230144_2_alg».proof.Proof.KernelArrays

noncomputable section

namespace Cert.KernelIdeal.ArrayValue

open Cert.KernelIdeal Cert.KernelIdeal.Gen Idealize.ShloMosaic Idealize.ShloMosaic.TcCoe Idealize.SL.Sem
open Idealize.ShloMosaic.ValueIdx EdgeMlp Cert.KernelIdeal.EntryValue Cert.KernelIdeal.BlockValue
open Idealize.ShloMosaic.Pipeline (Dat)

variable (m : (ℓ : Loc nD τ sig) → Buf (Elt Ideal) ℓ) (ρ : Dev nD → PrngReg)

theorem hz : (![0, 0] : Fin 2 → Nat) = fun _ => 0 := funext fun a => by fin_cases a <;> rfl

/-- The network's result as ONE function of the argument arrays: at edge `i 0` and unit `i 1`, `EdgeMlp.out` of the
    gathered rows, the edge states, the lengths, the weights and the biases. -/
def G (c : Dev nD) : S320000x256.Idx → EReal := fun i =>
  out (senderRows m c) (receiverRows m c) (m ((c : Thread nD τ).loc main_arg3)) (m ((c : Thread nD τ).loc main_arg2)) (m ((c : Thread nD τ).loc main_arg4)) (m ((c : Thread nD τ).loc main_arg5)) (m ((c : Thread nD τ).loc main_arg6)) (m ((c : Thread nD τ).loc main_arg7)) (i 0) (i 1)

/-- The printed index maps, decided over the grid: the per-edge windows are at block `(t, 0)`, the weights' and
    biases' windows at block `(0, 0)`. -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = t.val ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = 0 ∧ win0_7.index t (1 : Fin 2) = 0
    ∧ win0_8.index t (0 : Fin 2) = 0 ∧ win0_8.index t (1 : Fin 2) = 0
    ∧ win0_9.index t (0 : Fin 2) = 0 ∧ win0_9.index t (1 : Fin 2) = 0
    ∧ win0_10.index t (0 : Fin 2) = 0 ∧ win0_10.index t (1 : Fin 2) = 0
    ∧ win0_11.index t (0 : Fin 2) = t.val ∧ win0_11.index t (1 : Fin 2) = 0 :=
  (by decide +kernel : ∀ t : Fin grid0.N, _)

/-- A grid point is below 100. -/
theorem pt_lt (t : Fin cfg0.N) : t.val < 100 := lt_of_lt_of_eq t.isLt N_0

/-- Row `p` of a per-edge block at point `t` is edge `3200 t + p`. -/
def edge (t : Fin cfg0.N) (p : Fin 3200) : Fin 320000 :=
  ⟨t.val * 3200 + p.val, by have := pt_lt t; have := p.isLt; omega⟩

/-! ## Where each window's block sits in its array -/

theorem emb_sender (t : Fin cfg0.N) (p : Fin 3200) (a : Fin 256) :
    ((cfg0.win 0).blk t).view.emb (ix2 p a) = ix2 (edge t p) a := by
  obtain ⟨e0, e1, -⟩ := idx_facts t
  funext b; apply Fin.ext
  match b with
  | ⟨0, _⟩ => show win0_0.index t (0 : Fin 2) * 3200 + 1 * p.val = t.val * 3200 + p.val; omega
  | ⟨1, _⟩ => show win0_0.index t (1 : Fin 2) * 256 + 1 * a.val = a.val; omega

theorem emb_receiver (t : Fin cfg0.N) (p : Fin 3200) (a : Fin 256) :
    ((cfg0.win 1).blk t).view.emb (ix2 p a) = ix2 (edge t p) a := by
  obtain ⟨-, -, e0, e1, -⟩ := idx_facts t
  funext b; apply Fin.ext
  match b with
  | ⟨0, _⟩ => show win0_1.index t (0 : Fin 2) * 3200 + 1 * p.val = t.val * 3200 + p.val; omega
  | ⟨1, _⟩ => show win0_1.index t (1 : Fin 2) * 256 + 1 * a.val = a.val; omega

theorem emb_state (t : Fin cfg0.N) (p : Fin 3200) (a : Fin 256) :
    ((cfg0.win 2).blk t).view.emb (ix2 p a) = ix2 (edge t p) a := by
  obtain ⟨-, -, -, -, e0, e1, -⟩ := idx_facts t
  funext b; apply Fin.ext
  match b with
  | ⟨0, _⟩ => show win0_2.index t (0 : Fin 2) * 3200 + 1 * p.val = t.val * 3200 + p.val; omega
  | ⟨1, _⟩ => show win0_2.index t (1 : Fin 2) * 256 + 1 * a.val = a.val; omega

theorem emb_len (t : Fin cfg0.N) (p : Fin 3200) :
    ((cfg0.win 3).blk t).view.emb (ix2 p (0 : Fin 1)) = ix2 (edge t p) (0 : Fin 1) := by
  obtain ⟨-, -, -, -, -, -, e0, e1, -⟩ := idx_facts t
  funext b; apply Fin.ext
  match b with
  | ⟨0, _⟩ => show win0_3.index t (0 : Fin 2) * 3200 + 1 * p.val = t.val * 3200 + p.val; omega
  | ⟨1, _⟩ => show win0_3.index t (1 : Fin 2) * 1 + 1 * 0 = 0; omega

theorem emb_w1s (t : Fin cfg0.N) (a k : Fin 256) : ((cfg0.win 4).blk t).view.emb (ix2 a k) = ix2 a k := by
  obtain ⟨-, -, -, -, -, -, -, -, e0, e1, -⟩ := idx_facts t
  funext b; apply Fin.ext
  match b with
  | ⟨0, _⟩ => show win0_4.index t (0 : Fin 2) * 256 + 1 * a.val = a.val; omega
  | ⟨1, _⟩ => show win0_4.index t (1 : Fin 2) * 256 + 1 * k.val = k.val; omega

theorem emb_w1r (t : Fin cfg0.N) (a k : Fin 256) : ((cfg0.win 5).blk t).view.emb (ix2 a k) = ix2 a k := by
  obtain ⟨-, -, -, -, -, -, -, -, -, -, e0, e1, -⟩ := idx_facts t
  funext b; apply Fin.ext
  match b with
  | ⟨0, _⟩ => show win0_5.index t (0 : Fin 2) * 256 + 1 * a.val = a.val; omega
  | ⟨1, _⟩ => show win0_5.index t (1 : Fin 2) * 256 + 1 * k.val = k.val; omega

theorem emb_w1e (t : Fin cfg0.N) (a k : Fin 256) : ((cfg0.win 6).blk t).view.emb (ix2 a k) = ix2 a k := by
  obtain ⟨-, -, -, -, -, -, -, -, -, -, -, -, e0, e1, -⟩ := idx_facts t
  funext b; apply Fin.ext
  match b with
  | ⟨0, _⟩ => show win0_6.index t (0 : Fin 2) * 256 + 1 * a.val = a.val; omega
  | ⟨1, _⟩ => show win0_6.index t (1 : Fin 2) * 256 + 1 * k.val = k.val; omega

theorem emb_w1l (t : Fin cfg0.N) (k : Fin 256) :
    ((cfg0.win 7).blk t).view.emb (ix2 (0 : Fin 1) k) = ix2 (0 : Fin 1) k := by
  obtain ⟨-, -, -, -, -, -, -, -, -, -, -, -, -, -, e0, e1, -⟩ := idx_facts t
  funext b; apply Fin.ext
  match b with
  | ⟨0, _⟩ => show win0_7.index t (0 : Fin 2) * 1 + 1 * 0 = 0; omega
  | ⟨1, _⟩ => show win0_7.index t (1 : Fin 2) * 256 + 1 * k.val = k.val; omega

theorem emb_b1 (t : Fin cfg0.N) (k : Fin 256) :
    ((cfg0.win 8).blk t).view.emb (ix2 (0 : Fin 1) k) = ix2 (0 : Fin 1) k := by
  obtain ⟨-, -, -, -, -, -, -, -, -, -, -, -, -, -, -, -, e0, e1, -⟩ := idx_facts t
  funext b; apply Fin.ext
  match b with
  | ⟨0, _⟩ => show win0_8.index t (0 : Fin 2) * 1 + 1 * 0 = 0; omega
  | ⟨1, _⟩ => show win0_8.index t (1 : Fin 2) * 256 + 1 * k.val = k.val; omega

theorem emb_w2 (t : Fin cfg0.N) (k j : Fin 256) : ((cfg0.win 9).blk t).view.emb (ix2 k j) = ix2 k j := by
  obtain ⟨-, -, -, -, -, -, -, -, -, -, -, -, -, -, -, -, -, -, e0, e1, -⟩ := idx_facts t
  funext b; apply Fin.ext
  match b with
  | ⟨0, _⟩ => show win0_9.index t (0 : Fin 2) * 256 + 1 * k.val = k.val; omega
  | ⟨1, _⟩ => show win0_9.index t (1 : Fin 2) * 256 + 1 * j.val = j.val; omega

theorem emb_b2 (t : Fin cfg0.N) (j : Fin 256) :
    ((cfg0.win 10).blk t).view.emb (ix2 (0 : Fin 1) j) = ix2 (0 : Fin 1) j := by
  obtain ⟨-, -, -, -, -, -, -, -, -, -, -, -, -, -, -, -, -, -, -, -, e0, e1, -⟩ := idx_facts t
  funext b; apply Fin.ext
  match b with
  | ⟨0, _⟩ => show win0_10.index t (0 : Fin 2) * 1 + 1 * 0 = 0; omega
  | ⟨1, _⟩ => show win0_10.index t (1 : Fin 2) * 256 + 1 * j.val = j.val; omega

theorem emb_out (t : Fin cfg0.N) (p : Fin 3200) (q : Fin 256) :
    ((cfg0.win 11).blk t).view.emb (ix2 p q) = ix2 (edge t p) q := by
  obtain ⟨-, -, -, -, -, -, -, -, -, -, -, -, -, -, -, -, -, -, -, -, -, -, e0, e1⟩ := idx_facts t
  funext b; apply Fin.ext
  match b with
  | ⟨0, _⟩ => show win0_11.index t (0 : Fin 2) * 3200 + 1 * p.val = t.val * 3200 + p.val; omega
  | ⟨1, _⟩ => show win0_11.index t (1 : Fin 2) * 256 + 1 * q.val = q.val; omega

/-! ## What each input window's load holds at a point -/

theorem ld_sender (c : Dev nD) (t : Fin cfg0.N) (p : Fin 3200) (a : Fin 256) :
    View.ld (iblk m c 0 t) r0_0 (ix2 p a) = senderRows m c (ix2 (edge t p) a) := by
  rw [View.ld_unit_zero (S := S3200x256) hz]
  show (V m c main_v11 : S320000x256.Idx → EReal) (((cfg0.win 0).blk t).view.emb (ix2 p a)) = _
  rw [V_sender, emb_sender]

theorem ld_receiver (c : Dev nD) (t : Fin cfg0.N) (p : Fin 3200) (a : Fin 256) :
    View.ld (iblk m c 1 t) r0_0 (ix2 p a) = receiverRows m c (ix2 (edge t p) a) := by
  rw [View.ld_unit_zero (S := S3200x256) hz]
  show (V m c main_v18 : S320000x256.Idx → EReal) (((cfg0.win 1).blk t).view.emb (ix2 p a)) = _
  rw [V_receiver, emb_receiver]

theorem ld_state (c : Dev nD) (t : Fin cfg0.N) (p : Fin 3200) (a : Fin 256) :
    View.ld (iblk m c 2 t) r0_0 (ix2 p a) = (m ((c : Thread nD τ).loc main_arg3)) (ix2 (edge t p) a) := by
  rw [View.ld_unit_zero (S := S3200x256) hz]
  show (V m c main_arg3 : S320000x256.Idx → EReal) (((cfg0.win 2).blk t).view.emb (ix2 p a)) = _
  rw [V_main_arg3, emb_state]

theorem ld_len (c : Dev nD) (t : Fin cfg0.N) (p : Fin 3200) :
    View.ld (iblk m c 3 t) r0_1 (ix2 p (0 : Fin 1)) = (m ((c : Thread nD τ).loc main_arg2)) (ix1 (edge t p)) := by
  rw [View.ld_unit_zero (S := S3200x1) hz]
  show (V m c main_v29 : S320000x1.Idx → EReal) (((cfg0.win 3).blk t).view.emb (ix2 p (0 : Fin 1))) = _
  rw [emb_len, EntryValue.len_at]

theorem ld_w1s (c : Dev nD) (t : Fin cfg0.N) (a k : Fin 256) :
    View.ld (iblk m c 4 t) r0_2 (ix2 a k) = (m ((c : Thread nD τ).loc main_arg4)) (ix2 (rowS a) k) := by
  rw [View.ld_unit_zero (S := S256x256) hz]
  show (V m c main_v20 : S256x256.Idx → EReal) (((cfg0.win 4).blk t).view.emb (ix2 a k)) = _
  rw [emb_w1s, w1s_at]

theorem ld_w1r (c : Dev nD) (t : Fin cfg0.N) (a k : Fin 256) :
    View.ld (iblk m c 5 t) r0_2 (ix2 a k) = (m ((c : Thread nD τ).loc main_arg4)) (ix2 (rowR a) k) := by
  rw [View.ld_unit_zero (S := S256x256) hz]
  show (V m c main_v22 : S256x256.Idx → EReal) (((cfg0.win 5).blk t).view.emb (ix2 a k)) = _
  rw [emb_w1r, w1r_at]

theorem ld_w1e (c : Dev nD) (t : Fin cfg0.N) (a k : Fin 256) :
    View.ld (iblk m c 6 t) r0_2 (ix2 a k) = (m ((c : Thread nD τ).loc main_arg4)) (ix2 (rowE a) k) := by
  rw [View.ld_unit_zero (S := S256x256) hz]
  show (V m c main_v24 : S256x256.Idx → EReal) (((cfg0.win 6).blk t).view.emb (ix2 a k)) = _
  rw [emb_w1e, w1e_at]

theorem ld_w1l (c : Dev nD) (t : Fin cfg0.N) (k : Fin 256) :
    View.ld (iblk m c 7 t) r0_3 (ix2 (0 : Fin 1) k) = (m ((c : Thread nD τ).loc main_arg4)) (ix2 rowL k) := by
  rw [View.ld_unit_zero (S := S1x256) hz]
  show (V m c main_v25 : S1x256.Idx → EReal) (((cfg0.win 7).blk t).view.emb (ix2 (0 : Fin 1) k)) = _
  rw [emb_w1l, w1l_at]

theorem ld_b1 (c : Dev nD) (t : Fin cfg0.N) (k : Fin 256) :
    View.ld (iblk m c 8 t) r0_3 (ix2 (0 : Fin 1) k) = (m ((c : Thread nD τ).loc main_arg5)) (ix1 k) := by
  rw [View.ld_unit_zero (S := S1x256) hz]
  show (V m c main_v27 : S1x256.Idx → EReal) (((cfg0.win 8).blk t).view.emb (ix2 (0 : Fin 1) k)) = _
  rw [emb_b1, b1_at]

theorem ld_w2 (c : Dev nD) (t : Fin cfg0.N) (k j : Fin 256) :
    View.ld (iblk m c 9 t) r0_2 (ix2 k j) = (m ((c : Thread nD τ).loc main_arg6)) (ix2 k j) := by
  rw [View.ld_unit_zero (S := S256x256) hz]
  show (V m c main_v26 : S256x256.Idx → EReal) (((cfg0.win 9).blk t).view.emb (ix2 k j)) = _
  rw [emb_w2, w2_at]

theorem ld_b2 (c : Dev nD) (t : Fin cfg0.N) (j : Fin 256) :
    View.ld (iblk m c 10 t) r0_3 (ix2 (0 : Fin 1) j) = (m ((c : Thread nD τ).loc main_arg7)) (ix1 j) := by
  rw [View.ld_unit_zero (S := S1x256) hz]
  show (V m c main_v28 : S1x256.Idx → EReal) (((cfg0.win 10).blk t).view.emb (ix2 (0 : Fin 1) j)) = _
  rw [emb_b2, b2_at]

/-! ## What a point writes back, the cover, the final array -/

/-- WHAT POINT `t` WRITES BACK is block `t` of `G`. -/
theorem flushed_eq (c : Dev nD) (t : Fin cfg0.N) :
    (dats m 0 c).flushed 11 t = ((cfg0.win 11).blk t).view.read (Elt Ideal) (G m c) := by
  rw [Value.flushed11]
  funext y
  obtain ⟨p, q, rfl⟩ : ∃ (p : Fin 3200) (q : Fin 256), y = ix2 p q := ⟨y 0, y 1, eq_ix2 y⟩
  show out0_11 (iblk m c 0 t) (iblk m c 1 t) (iblk m c 2 t) (iblk m c 3 t) (iblk m c 4 t) (iblk m c 5 t) (iblk m c 6 t) (iblk m c 7 t) (iblk m c 8 t) (iblk m c 9 t) (iblk m c 10 t) (ix2 p q) = G m c (((cfg0.win 11).blk t).view.emb (ix2 p q))
  rw [emb_out]
  unfold out0_11
  refine (Value.canon11_eq _ _ _ _ _ _ _ _ _ _ _ (ix2 p q)).trans ?_
  exact block_is_out (View.ld (iblk m c 0 t) r0_0) (View.ld (iblk m c 1 t) r0_0) (View.ld (iblk m c 2 t) r0_0) (View.ld (iblk m c 3 t) r0_1) (View.ld (iblk m c 4 t) r0_2) (View.ld (iblk m c 5 t) r0_2) (View.ld (iblk m c 6 t) r0_2) (View.ld (iblk m c 7 t) r0_3) (View.ld (iblk m c 8 t) r0_3) (View.ld (iblk m c 9 t) r0_2) (View.ld (iblk m c 10 t) r0_3)
    (senderRows m c) (receiverRows m c) (m ((c : Thread nD τ).loc main_arg3)) (m ((c : Thread nD τ).loc main_arg2)) (m ((c : Thread nD τ).loc main_arg4)) (m ((c : Thread nD τ).loc main_arg5)) (m ((c : Thread nD τ).loc main_arg6)) (m ((c : Thread nD τ).loc main_arg7)) (edge t)
    (ld_sender m c t) (ld_receiver m c t) (ld_state m c t) (ld_len m c t) (ld_w1s m c t) (ld_w1r m c t) (ld_w1e m c t)
    (ld_w1l m c t) (ld_b1 m c t) (ld_w2 m c t) (ld_b2 m c t) p q

/-- An index of the output array is in point `t`'s block iff each coordinate is in the block's range on its axis. -/
theorem mem_blk (t : Fin cfg0.N) (i : S320000x256.Idx) :
    i ∈ ((cfg0.win 11).blk t).view.set ↔ ∀ a : Fin 2, win0_11.index t a * S3200x256.size a ≤ (i a).val ∧ (i a).val < win0_11.index t a * S3200x256.size a + S3200x256.size a := by
  show i ∈ ((View.whole main_v30).slice (win0_11.rect t)).set ↔ _
  rw [View.set_slice_whole, Rect.mem_set_unit]
  exact Iff.rfl

/-- Every index of the output array is in the block of the point `row / 3200`. -/
theorem cover (i : S320000x256.Idx) :
    ∃ t : Fin cfg0.N, (cfg0.win 11).flush t = true ∧ i ∈ ((cfg0.win 11).blk t).view.set := by
  have hi0 : (i 0).val < 320000 := (i 0).isLt
  have hi1 : (i 1).val < 256 := (i 1).isLt
  have hN : (i 0).val / 3200 < cfg0.N := by
    show (i 0).val / 3200 < grid0.N
    rw [N_0]; omega
  refine ⟨⟨(i 0).val / 3200, hN⟩, flush0_11 _, ?_⟩
  rw [mem_blk]
  obtain ⟨-, -, -, -, -, -, -, -, -, -, -, -, -, -, -, -, -, -, -, -, -, -, e0, e1⟩ := idx_facts ⟨(i 0).val / 3200, hN⟩
  have e0' : win0_11.index ⟨(i 0).val / 3200, hN⟩ (0 : Fin 2) = (i 0).val / 3200 := e0
  intro a
  match a with
  | ⟨0, _⟩ =>
    show win0_11.index ⟨(i 0).val / 3200, hN⟩ (0 : Fin 2) * 3200 ≤ (i 0).val ∧ (i 0).val < win0_11.index ⟨(i 0).val / 3200, hN⟩ (0 : Fin 2) * 3200 + 3200
    omega
  | ⟨1, _⟩ =>
    show win0_11.index ⟨(i 0).val / 3200, hN⟩ (1 : Fin 2) * 256 ≤ (i 1).val ∧ (i 1).val < win0_11.index ⟨(i 0).val / 3200, hN⟩ (1 : Fin 2) * 256 + 256
    omega

/-- THE OUTPUT ARRAY after the run is `G`. -/
theorem final (c : Dev nD) : (dats m 0 c).arrAt 11 cfg0.N = G m c :=
  (dats m 0 c).arrAt_eq_of_cover 11 (G m c) (fun t _ => flushed_eq m c t) cover

/-- The kernel's run with its result named: the output array ends as `G` of the arguments, the arguments unchanged. -/
theorem run : θ_run defs (onTc (τ := τ) (main (F := Ideal))) ⟨m, fun _ => 0, ρ⟩ fun r => ∀ c : Dev nD,
      r.2.mem ((c : Thread nD τ).loc main_v30) = G m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7) :=
  (θ_run defs _ _).mono (fun r h c => ⟨(h c).1.trans (final m c), (h c).2⟩) (Value.run_blocks m ρ)

end Cert.KernelIdeal.ArrayValue

end
-- ==== Proof.RefIsSpec.lean ====
/-
  The reference, read at an index, is the specification.

  The reference joins the gathered sender rows, the gathered receiver rows, the edge states and the edge lengths
  into one row of 769 entries per edge and multiplies it by the whole of `W1`. Read at edge `e` and column `c`, the
  joined array is the sender row at `c` for `c < 256`, the receiver row at `c - 256` for `256 ≤ c < 512`, the state
  row at `c - 512` for `512 ≤ c < 768`, and the length for `c = 768`. So the product's sum over the 769 columns
  splits into the four groups of rows of `W1` (`EdgeMlp.sum_rows`), which is how `EdgeMlp.hidden` adds them. The
  activation the reference spells as `h · (1 / (1 + e^(-h)))` is `h · σ(h)` by the definition of `σ` on the extended
  reals. The gathered rows are kept as whole arrays: nothing here looks inside a gather.
-/
import proofs.«133708_j35691178230144_2_alg».proof.Proof.Gen.ReferenceIdeal.Read
import proofs.«133708_j35691178230144_2_alg».proof.Proof.Spec
import Idealize.ShloMosaic.Lib.Pipeline.Value
import Idealize.ShloMosaic.Lib.ValueIdx
import Idealize.ShloMosaic.PureOps.Ideal.Laws

noncomputable section

namespace Cert.ReferenceIdeal.RefValue

open Cert.ReferenceIdeal Cert.ReferenceIdeal.Read Idealize.ShloMosaic Idealize.ShloMosaic.ValueIdx EdgeMlp

variable (x0 : (⟨S10000x256, .f32⟩ : BufTy).Contents (Elt Ideal)) (x1 : (⟨S2x320000, .i32⟩ : BufTy).Contents (Elt Ideal))
  (x2 : (⟨S320000, .f32⟩ : BufTy).Contents (Elt Ideal)) (x3 : (⟨S320000x256, .f32⟩ : BufTy).Contents (Elt Ideal))
  (x4 : (⟨S769x256, .f32⟩ : BufTy).Contents (Elt Ideal)) (x5 : (⟨S256, .f32⟩ : BufTy).Contents (Elt Ideal))
  (x6 : (⟨S256x256, .f32⟩ : BufTy).Contents (Elt Ideal)) (x7 : (⟨S256, .f32⟩ : BufTy).Contents (Elt Ideal))

/-- The bit pattern of the float one is the real one. -/
theorem one_bits : Ideal.ofBits .f32 0x3F800000#32 = 1 := by
  simp [Ideal.ofBits, Ideal.ieee, -EReal.coe_mul]; norm_num

/-! ## The joined array at an index -/

/-- Columns 0 … 255 of the joined array are the sender rows. -/
theorem joined_sender (e : Fin 320000) (q : Fin 256) :
    val_main_v19 (F := Ideal) x0 x1 x2 x3 (ix2 e (rowS q)) = val_main_v10 (F := Ideal) x0 x1 (ix2 e q) := by
  unfold val_main_v19
  exact concatenate_apply_piece 1 _ _ (ix2 e (rowS q)) 0 (by show (0 : Nat) < 4; decide) S320000x256 _ rfl rfl 0 rfl (ix2 e q)
    (fun b hb => match b with | ⟨0, _⟩ => rfl | ⟨1, _⟩ => absurd rfl hb)
    (Nat.zero_add _)

/-- Columns 256 … 511 of the joined array are the receiver rows. -/
theorem joined_receiver (e : Fin 320000) (q : Fin 256) :
    val_main_v19 (F := Ideal) x0 x1 x2 x3 (ix2 e (rowR q)) = val_main_v17 (F := Ideal) x0 x1 (ix2 e q) := by
  unfold val_main_v19
  exact concatenate_apply_piece 1 _ _ (ix2 e (rowR q)) 1 (by show (1 : Nat) < 4; decide) S320000x256 _ rfl rfl 256 rfl (ix2 e q)
    (fun b hb => match b with | ⟨0, _⟩ => rfl | ⟨1, _⟩ => absurd rfl hb)
    rfl

/-- Columns 512 … 767 of the joined array are the edge states. -/
theorem joined_state (e : Fin 320000) (q : Fin 256) :
    val_main_v19 (F := Ideal) x0 x1 x2 x3 (ix2 e (rowE q)) = x3 (ix2 e q) := by
  unfold val_main_v19
  exact concatenate_apply_piece 1 _ _ (ix2 e (rowE q)) 2 (by show (2 : Nat) < 4; decide) S320000x256 _ rfl rfl 512 rfl (ix2 e q)
    (fun b hb => match b with | ⟨0, _⟩ => rfl | ⟨1, _⟩ => absurd rfl hb)
    rfl

/-- Column 768 of the joined array is the edge length. -/
theorem joined_length (e : Fin 320000) :
    val_main_v19 (F := Ideal) x0 x1 x2 x3 (ix2 e rowL) = x2 (ix1 e) := by
  unfold val_main_v19
  refine (concatenate_apply_piece 1 _ _ (ix2 e rowL) 3 (by show (3 : Nat) < 4; decide) S320000x1 _ rfl rfl 768 rfl (ix2 e (0 : Fin 1))
    (fun b hb => match b with | ⟨0, _⟩ => rfl | ⟨1, _⟩ => absurd rfl hb)
    rfl).trans ?_
  rw [val_main_v18_apply]
  exact congrArg x2 (funext fun a => match a with | ⟨0, _⟩ => rfl)

/-! ## The hidden layer, the activation, the result -/

/-- The reference's hidden layer before the activation is `EdgeMlp.hidden` of the gathered rows. -/
theorem hidden_at (e : Fin 320000) (k : Fin 256) :
    val_main_v23 (F := Ideal) x0 x1 x2 x3 x4 x5 (ix2 e k)
      = hidden (val_main_v10 (F := Ideal) x0 x1) (val_main_v17 (F := Ideal) x0 x1) x3 x2 x4 x5 e k := by
  have hl : ∀ c : Fin 769, lidx_main_v20 (ix2 e k) c = ix2 e c := fun c =>
    funext fun a => match a with | ⟨0, _⟩ => rfl | ⟨1, _⟩ => rfl
  have hr : ∀ c : Fin 769, ridx_main_v20 (ix2 e k) c = ix2 c k := fun c =>
    funext fun a => match a with | ⟨0, _⟩ => rfl | ⟨1, _⟩ => rfl
  have hb : idx_main_v21 (idx_main_v22 (ix2 e k)) = ix1 k := funext fun a => match a with | ⟨0, _⟩ => rfl
  rw [val_main_v23_apply, val_main_v20_apply, val_main_v22_apply, val_main_v21_apply, sum_rows, hb]
  simp only [hl, hr, joined_sender, joined_receiver, joined_state, joined_length]
  rfl

/-- The reference's activation is `silu` of the hidden layer. -/
theorem act_at (e : Fin 320000) (k : Fin 256) :
    val_main_v24 (F := Ideal) x0 x1 x2 x3 x4 x5 (ix2 e k)
      = silu (hidden (val_main_v10 (F := Ideal) x0 x1) (val_main_v17 (F := Ideal) x0 x1) x3 x2 x4 x5 e k) := by
  rw [val_main_v24_apply, val_main_call0_v5_apply, val_main_call0_v4_apply, val_main_call0_cst_0_apply,
    val_main_call0_v3_apply, val_main_call0_v2_apply, val_main_call0_cst_apply, val_main_call0_v1_apply,
    val_main_call0_v0_apply, hidden_at]
  show _ * Ideal.div (Ideal.ofBits .f32 0x3F800000#32) (Ideal.ofBits .f32 0x3F800000#32 + Ideal.exp (-_)) = _
  rw [one_bits]
  rfl

/-- THE REFERENCE IS THE SPECIFICATION: its result at edge `e` and unit `j` is `EdgeMlp.out` of the gathered rows and
    the other arguments. -/
theorem result_at (e : Fin 320000) (j : Fin 256) :
    val_main_v28 (F := Ideal) x0 x1 x2 x3 x4 x5 x6 x7 (ix2 e j)
      = out (val_main_v10 (F := Ideal) x0 x1) (val_main_v17 (F := Ideal) x0 x1) x3 x2 x4 x5 x6 x7 e j := by
  have hl : ∀ k : Fin 256, lidx_main_v25 (ix2 e j) k = ix2 e k := fun k =>
    funext fun a => match a with | ⟨0, _⟩ => rfl | ⟨1, _⟩ => rfl
  have hr : ∀ k : Fin 256, ridx_main_v25 (ix2 e j) k = ix2 k j := fun k =>
    funext fun a => match a with | ⟨0, _⟩ => rfl | ⟨1, _⟩ => rfl
  have hb : idx_main_v26 (idx_main_v27 (ix2 e j)) = ix1 j := funext fun a => match a with | ⟨0, _⟩ => rfl
  rw [val_main_v28_apply, val_main_v25_apply, val_main_v27_apply, val_main_v26_apply, hb]
  simp only [hl, hr, act_at]
  rfl

end Cert.ReferenceIdeal.RefValue

end
-- ==== Proof.lean ====
/-
  The edge-update kernel against its reference: for every edge, gather the node table's rows at the sender and the
  receiver, form the hidden layer `[sender row, receiver row, edge state, edge length] · W1 + b1`, apply
  `h ↦ h · σ(h)`, multiply by `W2` and add `b2`.

  The reference joins the four pieces into one row of 769 entries and multiplies by the whole of `W1`; the kernel
  keeps them apart, multiplies each by its own group of rows of `W1` (three products of 256 rows and one outer product
  with the last row) and adds the results, 3200 edges per grid point. On the extended reals the two hidden layers are
  the same sum, grouped differently (`EdgeMlp.sum_rows`: only associativity and commutativity of addition, so the
  inputs' finiteness is not used), a change of float format is the identity, the kernel's logistic and the
  reference's `1 / (1 + e^(-h))` are one function, and both programs gather the same rows of the same table by the
  same indices. So both end with `EdgeMlp.out` of the same arrays at every edge and unit.

  The kernel's side: `Cert.KernelIdeal.ArrayValue.run` (the output array after the run is the function `G` of the
  arguments). The reference's side: `Cert.ReferenceIdeal.RefValue.result_at` (its result at an index is the same
  function). The ideal pass rewrote nothing, so the kernel's idealization is its own text read on the extended reals.
-/
import proofs.«133708_j35691178230144_2_alg».proof.Defs
import proofs.«133708_j35691178230144_2_alg».proof.Proof.Gen.Kernel
import proofs.«133708_j35691178230144_2_alg».proof.Proof.Gen.Kernel.Skeleton
import proofs.«133708_j35691178230144_2_alg».proof.Proof.Gen.Kernel.Launch
import proofs.«133708_j35691178230144_2_alg».proof.Proof.Gen.Kernel.Points
import proofs.«133708_j35691178230144_2_alg».proof.Proof.Gen.Kernel.Frame
import proofs.«133708_j35691178230144_2_alg».proof.Proof.Gen.KernelIdeal
import proofs.«133708_j35691178230144_2_alg».proof.Proof.Gen.KernelIdeal.Skeleton
import proofs.«133708_j35691178230144_2_alg».proof.Proof.Gen.KernelIdeal.Launch
import proofs.«133708_j35691178230144_2_alg».proof.Proof.Gen.KernelIdeal.Points
import proofs.«133708_j35691178230144_2_alg».proof.Proof.Gen.KernelIdeal.Frame
import proofs.«133708_j35691178230144_2_alg».proof.Proof.Gen.ReferenceIdeal
import proofs.«133708_j35691178230144_2_alg».proof.Proof.Gen.Pre_finite_inputs
import proofs.«133708_j35691178230144_2_alg».proof.Proof.Gen.KernelIdeal.Value
import proofs.«133708_j35691178230144_2_alg».proof.Proof.Gen.ReferenceIdeal.Run
import proofs.«133708_j35691178230144_2_alg».proof.Proof.Gen.ReferenceIdeal.Read
import proofs.«133708_j35691178230144_2_alg».proof.Proof.KernelValue
import proofs.«133708_j35691178230144_2_alg».proof.Proof.RefIsSpec
import Idealize.ShloMosaic.Adequacy
import Idealize.ShloMosaic.Init

noncomputable section

namespace Cert.Proof

open Idealize.ShloMosaic Idealize.ShloMosaic.TcCoe Idealize.SL.Sem Idealize.ShloMosaic.ValueIdx

/-- Both programs gather the same sender rows: the reference from the table, the kernel from the table after a
    change of float format, which is the identity on the extended reals; the indices are the same terms. -/
theorem sender_rows_eq (m : (ℓ : Loc Cert.KernelIdeal.nD Cert.KernelIdeal.τ Cert.KernelIdeal.sig) → Buf (Elt Ideal) ℓ)
    (c : Dev Cert.KernelIdeal.nD) :
    Cert.ReferenceIdeal.Read.val_main_v10 (F := Ideal)
        (m ((c : Thread Cert.KernelIdeal.nD Cert.KernelIdeal.τ).loc Cert.KernelIdeal.main_arg0))
        (m ((c : Thread Cert.KernelIdeal.nD Cert.KernelIdeal.τ).loc Cert.KernelIdeal.main_arg1))
      = Cert.KernelIdeal.EntryValue.senderRows m c := rfl

/-- Both programs gather the same receiver rows. -/
theorem receiver_rows_eq (m : (ℓ : Loc Cert.KernelIdeal.nD Cert.KernelIdeal.τ Cert.KernelIdeal.sig) → Buf (Elt Ideal) ℓ)
    (c : Dev Cert.KernelIdeal.nD) :
    Cert.ReferenceIdeal.Read.val_main_v17 (F := Ideal)
        (m ((c : Thread Cert.KernelIdeal.nD Cert.KernelIdeal.τ).loc Cert.KernelIdeal.main_arg0))
        (m ((c : Thread Cert.KernelIdeal.nD Cert.KernelIdeal.τ).loc Cert.KernelIdeal.main_arg1))
      = Cert.KernelIdeal.EntryValue.receiverRows m c := rfl

theorem frame_kernel : Cert.frame_Kernel := fun m ρ _ => Cert.Kernel.Gen.frame m ρ

theorem frame_kernel_ideal : Cert.frame_KernelIdeal := fun m ρ _ => Cert.KernelIdeal.Gen.frame m ρ

theorem frame_reference_ideal : Cert.frame_ReferenceIdeal := fun m ρ _ =>
  (θ_run Cert.ReferenceIdeal.defs _ _).mono (fun _ h c => (h c).2) (Cert.ReferenceIdeal.Value.run (F := Ideal) m ρ)

/-- From memories agreeing on the arguments both programs end with the network's result `G` of those arguments:
    the kernel's output array by its run, the reference's result index by index. -/
theorem algebraic : Cert.algebraic_KernelIdeal_ReferenceIdeal := by
  intro m ρ m' ρ' _ hagree
  refine ⟨fun c => Cert.KernelIdeal.ArrayValue.G m c, Cert.KernelIdeal.ArrayValue.run m ρ, ?_⟩
  refine (θ_run Cert.ReferenceIdeal.defs _ _).mono (fun _ h c => ⟨(h c).1.trans ?_, (h c).2⟩)
    (Cert.ReferenceIdeal.Value.run (F := Ideal) m' ρ')
  obtain ⟨a0, a1, a2, a3, a4, a5, a6, a7⟩ := hagree c
  rw [Cert.ReferenceIdeal.Read.val_main_v28_eq, a0, a1, a2, a3, a4, a5, a6, a7]
  funext i
  obtain ⟨e, j, rfl⟩ : ∃ (e : Fin 320000) (j : Fin 256), i = ix2 e j := ⟨i 0, i 1, eq_ix2 i⟩
  rw [Cert.ReferenceIdeal.RefValue.result_at, sender_rows_eq, receiver_rows_eq]
  rfl

theorem claim : Cert.Claim := ⟨Cert.Kernel.Gen.facts, Cert.KernelIdeal.Gen.facts, Cert.ReferenceIdeal.Gen.facts, Cert.Pre_finite_inputs.Gen.facts,
  frame_kernel, frame_kernel_ideal, frame_reference_ideal, trivial, algebraic⟩

end Cert.Proof

end
